-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S640000 : Shape := ⟨1, ![640000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S128x128 .f32) (main_arg22 : FVec F S128 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S128x128 .f32 := Host.absf main_arg21
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  main_v113

def fn_part5 {F : FTy → Type} [FloatOps F] (main_arg18 : FVec F S128 .f32) (main_arg19 : FVec F S1x128 .f32) (main_arg20 : FVec F S1 .f32) (main_arg21 : FVec F S128x128 .f32) (main_arg22 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S1x128 .f32 := Host.absf main_arg19
  let main_cst_36 : FVec F S_ .f32 := constant S_ .f32 0x7F800000#32
  let main_v95 : FVec F S1x128 .f32 := broadcastInDim S1x128 ![] bcast_S_S1x128 main_cst_36
  let main_v96 : IVec S1x128 1 := cmpf .olt main_v94 main_v95
  let main_c_37 : IVec S_ 1 := constantI S_ 1 1#1
  let main_v97 : IVec S_ 1 := (fun x v => Host.reduce IntOp.andi x v reducesTo_S1x128_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_arg19 : FVec F S1x128 .f32) (main_arg20 : FVec F S1 .f32) (main_arg21 : FVec F S128x128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S1x128 .f32) (main_arg20 : FVec F S1 .f32) (main_arg21 : FVec F S128x128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S1x128 .f32) (main_arg20 : FVec F S1 .f32) (main_arg21 : FVec F S128x128 .f32) (main_arg22 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S1x128 .f32) (main_arg20 : FVec F S1 .f32) (main_arg21 : FVec F S128x128 .f32) (main_arg22 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S1x128 .f32) (main_arg20 : FVec F S1 .f32) (main_arg21 : FVec F S128x128 .f32) (main_arg22 : FVec F S128 .f32) (main_arg23 : IVec S640000 32) (main_arg24 : IVec S640000 32) (main_arg25 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S640000 : Shape := ⟨1, ![640000]⟩
abbrev S100000 : Shape := ⟨1, ![100000]⟩
abbrev S_ : Shape := ⟨0, ![]⟩
abbrev S640000x1 : Shape := ⟨2, ![640000, 1]⟩
abbrev S640000x128 : Shape := ⟨2, ![640000, 128]⟩
abbrev S128x1 : Shape := ⟨2, ![128, 1]⟩
abbrev S2000x128 : Shape := ⟨2, ![2000, 128]⟩
abbrev S2000x1 : Shape := ⟨2, ![2000, 1]⟩
abbrev S1x1 : Shape := ⟨2, ![1, 1]⟩

abbrev nBuf : Space → Nat
  | .hbm => 100
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x128, .f32⟩
  | .hbm, ⟨20, _⟩ => ⟨S1, .f32⟩
  | .hbm, ⟨21, _⟩ => ⟨S128x128, .f32⟩
  | .hbm, ⟨22, _⟩ => ⟨S128, .f32⟩
  | .hbm, ⟨23, _⟩ => ⟨S640000, .i32⟩
  | .hbm, ⟨24, _⟩ => ⟨S640000, .i32⟩
  | .hbm, ⟨25, _⟩ => ⟨S100000, .i32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000, .i32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S640000, .f32⟩
  | .hbm, ⟨48, _⟩ => ⟨S640000x1, .f32⟩
  | .hbm, ⟨49, _⟩ => ⟨S640000x128, .f32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S_, .i32⟩
  | .hbm, ⟨56, _⟩ => ⟨S640000, .i32⟩
  | .hbm, ⟨57, _⟩ => ⟨S640000, .i1⟩
  | .hbm, ⟨58, _⟩ => ⟨S640000, .f32⟩
  | .hbm, ⟨59, _⟩ => ⟨S640000x1, .f32⟩
  | .hbm, ⟨60, _⟩ => ⟨S640000x128, .f32⟩
  | .hbm, ⟨61, _⟩ => ⟨S640000x128, .f32⟩
  | .hbm, ⟨62, _⟩ => ⟨S_, .f32⟩
  | .hbm, ⟨63, _⟩ => ⟨S100000x128, .f32⟩
  | .hbm, ⟨64, _⟩ => ⟨S640000x1, .i32⟩
  | .hbm, ⟨65, _⟩ => ⟨S100000x128, .f32⟩
  | .hbm, ⟨66, _⟩ => ⟨S_, .i32⟩
  | .hbm, ⟨67, _⟩ => ⟨S640000, .i32⟩
  | .hbm, ⟨68, _⟩ => ⟨S640000, .i1⟩
  | .hbm, ⟨69, _⟩ => ⟨S640000, .f32⟩
  | .hbm, ⟨70, _⟩ => ⟨S640000x1, .f32⟩
  | .hbm, ⟨71, _⟩ => ⟨S640000x128, .f32⟩
  | .hbm, ⟨72, _⟩ => ⟨S640000x128, .f32⟩
  | .hbm, ⟨73, _⟩ => ⟨S_, .f32⟩
  | .hbm, ⟨74, _⟩ => ⟨S100000x128, .f32⟩
  | .hbm, ⟨75, _⟩ => ⟨S640000x1, .i32⟩
  | .hbm, ⟨76, _⟩ => ⟨S100000x128, .f32⟩
  | .hbm, ⟨77, _⟩ => ⟨S128x128, .f32⟩
  | .hbm, ⟨78, _⟩ => ⟨S128x128, .bf16⟩
  | .hbm, ⟨79, _⟩ => ⟨S128x128, .f32⟩
  | .hbm, ⟨80, _⟩ => ⟨S128x128, .bf16⟩
  | .hbm, ⟨81, _⟩ => ⟨S128x128, .f32⟩
  | .hbm, ⟨82, _⟩ => ⟨S128x128, .bf16⟩
  | .hbm, ⟨83, _⟩ => ⟨S128x128, .f32⟩
  | .hbm, ⟨84, _⟩ => ⟨S128x128, .bf16⟩
  | .hbm, ⟨85, _⟩ => ⟨S128x128, .f32⟩
  | .hbm, ⟨86, _⟩ => ⟨S128x128, .bf16⟩
  | .hbm, ⟨87, _⟩ => ⟨S128x128, .f32⟩
  | .hbm, ⟨88, _⟩ => ⟨S128x128, .bf16⟩
  | .hbm, ⟨89, _⟩ => ⟨S128x128, .f32⟩
  | .hbm, ⟨90, _⟩ => ⟨S128x128, .bf16⟩
  | .hbm, ⟨91, _⟩ => ⟨S128x128, .f32⟩
  | .hbm, ⟨92, _⟩ => ⟨S128x128, .bf16⟩
  | .hbm, ⟨93, _⟩ => ⟨S128x128, .f32⟩
  | .hbm, ⟨94, _⟩ => ⟨S128x128, .bf16⟩
  | .hbm, ⟨95, _⟩ => ⟨S128x1, .f32⟩
  | .hbm, ⟨96, _⟩ => ⟨S128x1, .bf16⟩
  | .hbm, ⟨97, _⟩ => ⟨S128x128, .f32⟩
  | .hbm, ⟨98, _⟩ => ⟨S128x128, .bf16⟩
  | .hbm, ⟨99, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S128x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S128x128, .bf16⟩
  | .local _ .vmem, ⟨19, _⟩ => ⟨S128, .f32⟩
  | .local _ .vmem, ⟨20, _⟩ => ⟨S128x128, .bf16⟩
  | .local _ .vmem, ⟨21, _⟩ => ⟨S128, .f32⟩
  | .local _ .vmem, ⟨22, _⟩ => ⟨S128x128, .bf16⟩
  | .local _ .vmem, ⟨23, _⟩ => ⟨S128, .f32⟩
  | .local _ .vmem, ⟨24, _⟩ => ⟨S128x128, .bf16⟩
  | .local _ .vmem, ⟨25, _⟩ => ⟨S128, .f32⟩
  | .local _ .vmem, ⟨26, _⟩ => ⟨S128x1, .bf16⟩
  | .local _ .vmem, ⟨27, _⟩ => ⟨S1, .f32⟩
  | .local _ .vmem, ⟨28, _⟩ => ⟨S128x128, .bf16⟩
  | .local _ .vmem, ⟨29, _⟩ => ⟨S128, .f32⟩
  | .local _ .vmem, ⟨30, _⟩ => ⟨S2000x128, .f32⟩
  | .local _ .vmem, ⟨31, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg26_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem26_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x1 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S2000x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  transposes_S1x128_S128x1_1_0 : S1x128.Transposes [1, 0] S128x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  broadcasts_S2000x1_S2000x128 : S2000x1.Broadcasts S2000x128
  gather_S100000x128_S640000x1_S640000x128_1_0_n_n_0_1_1128_wf : GatherDims.WF S100000x128 S640000x1 S640000x128 [1] [0] [] [0] [] 1 ![1, 128]
  gather_S100000_S640000x1_S640000_n_0_n_n_0_1_1_wf : GatherDims.WF S100000 S640000x1 S640000 [] [0] [] [0] [] 1 ![1]
  scatter_S100000x128_S640000x1_S640000x128_1_0_0_1_wf : ScatterDims.WF S100000x128 S640000x1 S640000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .bf16 = 32 ∨ (Rect.block (s := S128x128) S128x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .bf16 = 32 ∨ (Rect.block (s := S128x128) S128x128.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .bf16 = 32 ∨ (Rect.block (s := S128x128) S128x128.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128.size a ≤ S128.size a
  hwx0_21 : ∀ i : grid0.Coords, EltTy.bits .f32 = 32 ∨ (Rect.block (s := S128) S128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x1.size a ≤ S128x1.size a
  hwx0_22 : ∀ i : grid0.Coords, EltTy.bits .bf16 = 32 ∨ (Rect.block (s := S128x1) S128x1.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1.size a ≤ S1.size a
  hwx0_23 : ∀ i : grid0.Coords, EltTy.bits .f32 = 32 ∨ (Rect.block (s := S1) S1.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128x128.size a ≤ S128x128.size a
  hwx0_24 : ∀ i : grid0.Coords, EltTy.bits .bf16 = 32 ∨ (Rect.block (s := S128x128) S128x128.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128.size a ≤ S128.size a
  hwx0_25 : ∀ i : grid0.Coords, EltTy.bits .f32 = 32 ∨ (Rect.block (s := S128) S128.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S2000x128.size a ≤ S100000x128.size a
  hwx0_26 : ∀ i : grid0.Coords, EltTy.bits .f32 = 32 ∨ (Rect.block (s := S100000x128) S2000x128.size (cc0_transform_26 i) (hinb0_26 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v48) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v50) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v52) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg12) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v54) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg14) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v56) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg16) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v58) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg18) S128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v60) S128x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg20) S1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v62) S128x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg22) S128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v63) S2000x128.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S640000 : Shape := ⟨1, ![640000]⟩
abbrev S100000 : Shape := ⟨1, ![100000]⟩
abbrev S_ : Shape := ⟨0, ![]⟩
abbrev S640000x1 : Shape := ⟨2, ![640000, 1]⟩
abbrev S640000x128 : Shape := ⟨2, ![640000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 205
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S1x128, .f32⟩
  | 20 => ⟨S1, .f32⟩
  | 21 => ⟨S128x128, .f32⟩
  | 22 => ⟨S128, .f32⟩
  | 23 => ⟨S640000, .i32⟩
  | 24 => ⟨S640000, .i32⟩
  | 25 => ⟨S100000, .i32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000x128, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000, .i32⟩
  | 44 => ⟨S_, .i32⟩
  | 45 => ⟨S640000, .i32⟩
  | 46 => ⟨S640000, .i1⟩
  | 47 => ⟨S640000, .f32⟩
  | 48 => ⟨S640000x1, .f32⟩
  | 49 => ⟨S640000x128, .f32⟩
  | 50 => ⟨S640000x128, .f32⟩
  | 51 => ⟨S_, .f32⟩
  | 52 => ⟨S100000x128, .f32⟩
  | 53 => ⟨S640000x1, .i32⟩
  | 54 => ⟨S100000x128, .f32⟩
  | 55 => ⟨S_, .i32⟩
  | 56 => ⟨S640000, .i32⟩
  | 57 => ⟨S640000, .i1⟩
  | 58 => ⟨S640000, .f32⟩
  | 59 => ⟨S640000x1, .f32⟩
  | 60 => ⟨S640000x128, .f32⟩
  | 61 => ⟨S640000x128, .f32⟩
  | 62 => ⟨S_, .f32⟩
  | 63 => ⟨S100000x128, .f32⟩
  | 64 => ⟨S640000x1, .i32⟩
  | 65 => ⟨S100000x128, .f32⟩
  | 66 => ⟨S_, .i32⟩
  | 67 => ⟨S640000, .i32⟩
  | 68 => ⟨S640000, .i1⟩
  | 69 => ⟨S640000, .f32⟩
  | 70 => ⟨S640000x1, .f32⟩
  | 71 => ⟨S640000x128, .f32⟩
  | 72 => ⟨S640000x128, .f32⟩
  | 73 => ⟨S_, .f32⟩
  | 74 => ⟨S100000x128, .f32⟩
  | 75 => ⟨S640000x1, .i32⟩
  | 76 => ⟨S100000x128, .f32⟩
  | 77 => ⟨S128x128, .f32⟩
  | 78 => ⟨S100000x128, .f32⟩
  | 79 => ⟨S1x128, .f32⟩
  | 80 => ⟨S100000x128, .f32⟩
  | 81 => ⟨S100000x128, .f32⟩
  | 82 => ⟨S100000x128, .f32⟩
  | 83 => ⟨S128x128, .f32⟩
  | 84 => ⟨S100000x128, .f32⟩
  | 85 => ⟨S1x128, .f32⟩
  | 86 => ⟨S100000x128, .f32⟩
  | 87 => ⟨S100000x128, .f32⟩
  | 88 => ⟨S128x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S128x128, .f32⟩
  | 95 => ⟨S100000x128, .f32⟩
  | 96 => ⟨S1x128, .f32⟩
  | 97 => ⟨S100000x128, .f32⟩
  | 98 => ⟨S100000x128, .f32⟩
  | 99 => ⟨S128x128, .f32⟩
  | 100 => ⟨S100000x128, .f32⟩
  | 101 => ⟨S1x128, .f32⟩
  | 102 => ⟨S100000x128, .f32⟩
  | 103 => ⟨S100000x128, .f32⟩
  | 104 => ⟨S100000x128, .f32⟩
  | 105 => ⟨S128x128, .f32⟩
  | 106 => ⟨S100000x128, .f32⟩
  | 107 => ⟨S1x128, .f32⟩
  | 108 => ⟨S100000x128, .f32⟩
  | 109 => ⟨S100000x128, .f32⟩
  | 110 => ⟨S128x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S128x128, .f32⟩
  | 117 => ⟨S100000x128, .f32⟩
  | 118 => ⟨S1x128, .f32⟩
  | 119 => ⟨S100000x128, .f32⟩
  | 120 => ⟨S100000x128, .f32⟩
  | 121 => ⟨S128x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S128x1, .f32⟩
  | 2 => ⟨S100000x1, .f32⟩
  | 3 => ⟨S1x1, .f32⟩
  | 4 => ⟨S100000x1, .f32⟩
  | 5 => ⟨S100000x1, .f32⟩
  | 6 => ⟨S100000x1, .f32⟩
  | 7 => ⟨S100000x1, .f32⟩
  | 8 => ⟨S_, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S128x128, .f32⟩
  | 15 => ⟨S100000x128, .f32⟩
  | 16 => ⟨S1x128, .f32⟩
  | 17 => ⟨S100000x128, .f32⟩
  | 18 => ⟨S100000x128, .f32⟩
  | 19 => ⟨S100000x128, .f32⟩
  | 20 => ⟨S128x128, .f32⟩
  | 21 => ⟨S100000x128, .f32⟩
  | 22 => ⟨S1x128, .f32⟩
  | 23 => ⟨S100000x128, .f32⟩
  | 24 => ⟨S100000x128, .f32⟩
  | 25 => ⟨S128x128, .f32⟩
  | 26 => ⟨S100000x128, .f32⟩
  | 27 => ⟨S1x128, .f32⟩
  | 28 => ⟨S100000x128, .f32⟩
  | 29 => ⟨S100000x128, .f32⟩
  | 30 => ⟨S100000x128, .f32⟩
  | 31 => ⟨S128x128, .f32⟩
  | 32 => ⟨S100000x128, .f32⟩
  | 33 => ⟨S1x128, .f32⟩
  | 34 => ⟨S100000x128, .f32⟩
  | 35 => ⟨S100000x128, .f32⟩
  | 36 => ⟨S128x128, .f32⟩
  | 37 => ⟨S100000x128, .f32⟩
  | 38 => ⟨S1x128, .f32⟩
  | 39 => ⟨S100000x128, .f32⟩
  | 40 => ⟨S100000x128, .f32⟩
  | 41 => ⟨S100000x128, .f32⟩
  | 42 => ⟨S128x128, .f32⟩
  | 43 => ⟨S100000x128, .f32⟩
  | 44 => ⟨S1x128, .f32⟩
  | 45 => ⟨S100000x128, .f32⟩
  | 46 => ⟨S100000x128, .f32⟩
  | 47 => ⟨S128x128, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S128x128, .f32⟩
  | 54 => ⟨S100000x128, .f32⟩
  | 55 => ⟨S1x128, .f32⟩
  | 56 => ⟨S100000x128, .f32⟩
  | 57 => ⟨S100000x128, .f32⟩
  | 58 => ⟨S100000x128, .f32⟩
  | 59 => ⟨S100000x128, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S100000x128, .f32⟩
  | 66 => ⟨S100000x128, .f32⟩
  | 67 => ⟨S100000x128, .f32⟩
  | 68 => ⟨S128x128, .f32⟩
  | 69 => ⟨S100000x128, .f32⟩
  | 70 => ⟨S1x128, .f32⟩
  | 71 => ⟨S100000x128, .f32⟩
  | 72 => ⟨S100000x128, .f32⟩
  | 73 => ⟨S100000x128, .f32⟩
  | 74 => ⟨S_, .f32⟩
  | 75 => ⟨S100000x128, .f32⟩
  | 76 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call0_cst : Ref sig .tc := ⟨.hbm, 126, rfl⟩
abbrev main_call0_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_8 : Ref sig .tc := ⟨.hbm, 136, rfl⟩
abbrev main_v98 : Ref sig .tc := ⟨.hbm, 137, rfl⟩
abbrev main_v99 : Ref sig .tc := ⟨.hbm, 138, rfl⟩
abbrev main_cst_9 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_10 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_call1_cst : Ref sig .tc := ⟨.hbm, 202, rfl⟩
abbrev main_call1_v0 : Ref sig .tc := ⟨.hbm, 203, rfl⟩
abbrev main_v161 : Ref sig .tc := ⟨.hbm, 204, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  gather_S100000_S640000x1_S640000_n_0_n_n_0_1_1_wf : GatherDims.WF S100000 S640000x1 S640000 [] [0] [] [0] [] 1 ![1]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RowSpec.lean ====
/-
  One node's output row of the label-aware aggregation layer, as a function of that node's own feature row, its
  three neighbour sums (one per source label) and the layer's weights. Every entry of the result depends on the
  node's own rows only: this is what lets a computation over row blocks and a computation over the whole node
  array be compared row by row. All arithmetic is on the extended reals.
-/
import Idealize.ShloMosaic.PureOps.Ideal
import Idealize.ShloMosaic.Lib.ValueIdx

noncomputable section

namespace Cert.NodeRow

open Idealize.ShloMosaic

/-- A coefficient table of a linear layer: `w q k` multiplies input entry `k` in output entry `q`. -/
abbrev Coef := Fin 128 → Fin 128 → EReal
/-- A row of 128 entries. -/
abbrev Row := Fin 128 → EReal

/-- One linear layer applied to a row: entry `q` of `x · Wᵀ + b`. -/
def lin (x : Row) (w : Coef) (b : Row) (q : Fin 128) : EReal :=
  (∑ k : Fin 128, x k * w q k) + b q

/-- The gated two-layer map. The neighbour sum `s` is multiplied entrywise by a linear image of the node's own
    row `h`, sent through a linear layer, multiplied entrywise by a second linear image of `h`, and sent through a
    second linear layer. -/
def gated (s h : Row) (w1 : Coef) (b1 : Row) (t1 : Coef) (c1 : Row) (w2 : Coef) (b2 : Row) (t2 : Coef) (c2 : Row)
    (q : Fin 128) : EReal :=
  lin (fun k => lin (fun j => s j * lin h t1 c1 j) w1 b1 k * lin h t2 c2 k) w2 b2 q

/-- The balance gate of a node: the logistic function of one number, a linear form `v` (plus `d`) of the
    rectified linear image of the node's own row. -/
def balance (h : Row) (u : Coef) (a : Row) (v : Row) (d : EReal) : EReal :=
  Ideal.logistic ((∑ k : Fin 128, max (lin h u a k) 0 * v k) + d)

/-- Entry `q` of a node's output row: the rectified sum of the node's own linear image and its neighbourhood term —
    the two labelled neighbour sums through their own gated maps, and the unlabelled neighbour sum through both
    maps, mixed by the balance gate. -/
def row (h sfr sbe sunk : Row)
    (fw1 : Coef) (fb1 : Row) (ft1 : Coef) (fc1 : Row) (fw2 : Coef) (fb2 : Row) (ft2 : Coef) (fc2 : Row)
    (gw1 : Coef) (gb1 : Row) (gt1 : Coef) (gc1 : Row) (gw2 : Coef) (gb2 : Row) (gt2 : Coef) (gc2 : Row)
    (u : Coef) (a : Row) (v : Row) (d : EReal) (sw : Coef) (sb : Row) (q : Fin 128) : EReal :=
  max (lin h sw sb q
      + ((gated sfr h fw1 fb1 ft1 fc1 fw2 fb2 ft2 fc2 q + gated sbe h gw1 gb1 gt1 gc1 gw2 gb2 gt2 gc2 q)
        + (balance h u a v d * gated sunk h fw1 fb1 ft1 fc1 fw2 fb2 ft2 fc2 q
          + (1 - balance h u a v d) * gated sunk h gw1 gb1 gt1 gc1 gw2 gb2 gt2 gc2 q))) 0

end Cert.NodeRow

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibColumn.lean ====
/-
  One column broadcast over many. A `[a, 1]` array broadcast to `[a, b]` holds, at `(p, c)`, the operand's
  entry `(p, 0)`: every column of the result is the operand's one column. (The row form, `[1, b]` to `[a, b]`,
  is the library's `broadcastTo_1b_ab_apply`.) Also the host's `broadcast_in_dim` of a vector `[a]` to the column
  `[a, 1]` along axis 0, read at `(p, u)`: the vector's entry `p`.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` placed by `broadcast_in_dim` along axis 0 of the column shape `[a, 1]` reads, at `(p, u)`,
    the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Cert.LibColumn
-- ==== Proof.KernelRow.lean ====
/-
  The body of the node kernel, read one output entry at a time on the extended reals. A block holds 2000 nodes;
  entry (r, q) of what the body stores is the specification's `row` of the block's row r of the four node inputs
  and of the weight blocks, which arrive already transposed: entry (k, q) of a weight block is the coefficient of
  input k in output q. Each matrix product into a zero accumulator is the plain sum over the contracted axis, a
  change of float format is the identity, and a bias is a vector laid out as one row and repeated over the rows.
-/
import proofs.«140283_j22926535426631_1_alg».proof.Proof.Gen.KernelIdeal.Skeleton
import proofs.«140283_j22926535426631_1_alg».proof.Proof.RowSpec
import proofs.«140283_j22926535426631_1_alg».proof.Proof.LibMatmul
import proofs.«140283_j22926535426631_1_alg».proof.Proof.LibColumn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.RowValue

open Cert.KernelIdeal Cert.KernelIdeal.Gen Idealize.ShloMosaic Idealize.ShloMosaic.TcCoe Idealize.ShloMosaic.ValueIdx
open Cert.NodeRow

/-- A transposed weight block as a coefficient table: the coefficient of input `k` in output `q` sits at (k, q). -/
abbrev wT (w : FVec Ideal S128x128 .bf16) : Coef := fun q k => w (ix2 k q)
/-- A bias vector as a row. -/
abbrev bv (b : FVec Ideal S128 .f32) : Row := fun q => b (ix1 q)

/-! ## Which operand entries the square product pairs -/

theorem sq_l0 (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem sq_l1 (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem sq_r0 (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem sq_r1 (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## and the product with the one-column weight -/

theorem col_l0 (j : S2000x1.Idx) (q : dot_S2000x128_S128x1_S2000x1_1_0_0_1_n_n.contr.Idx) : (dot_S2000x128_S128x1_S2000x1_1_0_0_1_n_n.lhsIdx j q 0).val = (j 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem col_l1 (j : S2000x1.Idx) (q : dot_S2000x128_S128x1_S2000x1_1_0_0_1_n_n.contr.Idx) : (dot_S2000x128_S128x1_S2000x1_1_0_0_1_n_n.lhsIdx j q 1).val = (q ⟨0, by decide⟩).val :=
  dot_S2000x128_S128x1_S2000x1_1_0_0_1_n_n.lhsIdx_val_of_single rfl j q
theorem col_r0 (j : S2000x1.Idx) (q : dot_S2000x128_S128x1_S2000x1_1_0_0_1_n_n.contr.Idx) : (dot_S2000x128_S128x1_S2000x1_1_0_0_1_n_n.rhsIdx j q 0).val = (q ⟨0, by decide⟩).val :=
  dot_S2000x128_S128x1_S2000x1_1_0_0_1_n_n.rhsIdx_val_of_single rfl j q
theorem col_r1 (j : S2000x1.Idx) (q : dot_S2000x128_S128x1_S2000x1_1_0_0_1_n_n.contr.Idx) : (dot_S2000x128_S128x1_S2000x1_1_0_0_1_n_n.rhsIdx j q 1).val = (j 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-! ## One linear layer inside the body -/

/-- A block times a transposed weight block, plus the bias laid over the rows: at (r, q) the specification's
    linear layer of the block's row r. -/
theorem layer (x : FVec Ideal S2000x128 .bf16) (w : FVec Ideal S128x128 .bf16) (b : FVec Ideal S128 .f32) (r : Fin 2000) (q : Fin 128) :
    addf (matmul dot_S2000x128_S128x128_S2000x128_1_0_0_1_n_n none x (shapeCast S128x128 w shapeCasts_S128x128_S128x128 : FVec Ideal S128x128 .bf16) (constant (F := Ideal) S2000x128 .f32 0x00000000#32)) (broadcastTo S2000x128 (shapeCast S1x128 b shapeCasts_S128_S1x128 : FVec Ideal S1x128 .f32) broadcasts_S1x128_S2000x128 : FVec Ideal S2000x128 .f32) (ix2 r q)
      = lin (fun k => x (ix2 r k)) (wT w) (bv b) q := by
  rw [shapeCast_self]
  show FloatOps.matmul dot_S2000x128_S128x128_S2000x128_1_0_0_1_n_n none x w (constant (F := Ideal) S2000x128 .f32 0x00000000#32) (ix2 r q)
      + (broadcastTo S2000x128 (shapeCast S1x128 b shapeCasts_S128_S1x128 : FVec Ideal S1x128 .f32) broadcasts_S1x128_S2000x128 : FVec Ideal S2000x128 .f32) (ix2 r q) = _
  rw [Cert.LibMatmul.matmul_zero_ix2 dot_S2000x128_S128x128_S2000x128_1_0_0_1_n_n none rfl rfl sq_l0 sq_l1 sq_r0 sq_r1, broadcastTo_1b_ab_apply, shapeCast_a_1a_apply] <;> rfl

/-- Two layers with their two entrywise gates: at (r, q) the specification's nesting of two linear layers. -/
theorem twoLayers (s g1 g2 : FVec Ideal S2000x128 .f32) (w1 : FVec Ideal S128x128 .bf16) (b1 : FVec Ideal S128 .f32)
    (w2 : FVec Ideal S128x128 .bf16) (b2 : FVec Ideal S128 .f32) (r : Fin 2000) (q : Fin 128) :
    addf (matmul dot_S2000x128_S128x128_S2000x128_1_0_0_1_n_n none (truncf .bf16 (mulf (addf (matmul dot_S2000x128_S128x128_S2000x128_1_0_0_1_n_n none (truncf .bf16 (mulf s g1) bitsLt_bf16_f32 : FVec Ideal S2000x128 .bf16) (shapeCast S128x128 w1 shapeCasts_S128x128_S128x128 : FVec Ideal S128x128 .bf16) (constant (F := Ideal) S2000x128 .f32 0x00000000#32)) (broadcastTo S2000x128 (shapeCast S1x128 b1 shapeCasts_S128_S1x128 : FVec Ideal S1x128 .f32) broadcasts_S1x128_S2000x128 : FVec Ideal S2000x128 .f32)) g2) bitsLt_bf16_f32 : FVec Ideal S2000x128 .bf16) (shapeCast S128x128 w2 shapeCasts_S128x128_S128x128 : FVec Ideal S128x128 .bf16) (constant (F := Ideal) S2000x128 .f32 0x00000000#32)) (broadcastTo S2000x128 (shapeCast S1x128 b2 shapeCasts_S128_S1x128 : FVec Ideal S1x128 .f32) broadcasts_S1x128_S2000x128 : FVec Ideal S2000x128 .f32) (ix2 r q)
      = lin (fun k => lin (fun j => s (ix2 r j) * g1 (ix2 r j)) (wT w1) (bv b1) k * g2 (ix2 r k)) (wT w2) (bv b2) q := by
  rw [layer]
  refine congrArg (fun f : Row => lin f (wT w2) (bv b2) q) (funext fun k => ?_)
  show (addf (matmul dot_S2000x128_S128x128_S2000x128_1_0_0_1_n_n none (truncf .bf16 (mulf s g1) bitsLt_bf16_f32 : FVec Ideal S2000x128 .bf16) (shapeCast S128x128 w1 shapeCasts_S128x128_S128x128 : FVec Ideal S128x128 .bf16) (constant (F := Ideal) S2000x128 .f32 0x00000000#32)) (broadcastTo S2000x128 (shapeCast S1x128 b1 shapeCasts_S128_S1x128 : FVec Ideal S1x128 .f32) broadcasts_S1x128_S2000x128 : FVec Ideal S2000x128 .f32)) (ix2 r k) * g2 (ix2 r k) = _
  rw [layer] <;> rfl

/-! ## The balance gate's argument -/

/-- The rectified hidden block times the one-column weight, plus the one-entry bias repeated down the column: at
    row r, the linear form of that row. -/
theorem gateArg (z : FVec Ideal S2000x128 .bf16) (v : FVec Ideal S128x1 .bf16) (d : FVec Ideal S1 .f32) (r : Fin 2000) (u : Fin 1) :
    (addf (matmul dot_S2000x128_S128x1_S2000x1_1_0_0_1_n_n none z (shapeCast S128x1 v shapeCasts_S128x1_S128x1 : FVec Ideal S128x1 .bf16) (constant (F := Ideal) S2000x1 .f32 0x00000000#32)) (broadcastTo S2000x1 (shapeCast S1x1 d shapeCasts_S1_S1x1 : FVec Ideal S1x1 .f32) broadcasts_S1x1_S2000x1 : FVec Ideal S2000x1 .f32)) (ix2 r u)
      = (∑ k : Fin 128, z (ix2 r k) * v (ix2 k (0 : Fin 1))) + d (ix1 (0 : Fin 1)) := by
  have hu : u = 0 := Subsingleton.elim _ _
  subst hu
  rw [shapeCast_self]
  show FloatOps.matmul dot_S2000x128_S128x1_S2000x1_1_0_0_1_n_n none z v (constant (F := Ideal) S2000x1 .f32 0x00000000#32) (ix2 r (0 : Fin 1))
      + (broadcastTo S2000x1 (shapeCast S1x1 d shapeCasts_S1_S1x1 : FVec Ideal S1x1 .f32) broadcasts_S1x1_S2000x1 : FVec Ideal S2000x1 .f32) (ix2 r (0 : Fin 1)) = _
  rw [Cert.LibMatmul.matmul_zero_ix2 dot_S2000x128_S128x1_S2000x1_1_0_0_1_n_n none rfl rfl col_l0 col_l1 col_r0 col_r1, broadcastTo_1b_ab_apply, shapeCast_a_1a_apply] <;> rfl

/-! ## The payload pieces, each at one entry -/

variable (x0 x1 x2 x3 : Vec Ideal S2000x128 .f32) (r : Fin 2000)

theorem cast_entry (x : Vec Ideal S2000x128 .f32) (k : Fin 128) : k0_pay2 x (ix2 r k) = x (ix2 r k) := by
  unfold k0_pay2; rw [shapeCast_self]
theorem cast_entry3 (x : Vec Ideal S2000x128 .f32) (k : Fin 128) : k0_pay3 x (ix2 r k) = x (ix2 r k) := by
  unfold k0_pay3; rw [shapeCast_self]
theorem cast_entry4 (x : Vec Ideal S2000x128 .f32) (k : Fin 128) : k0_pay4 x (ix2 r k) = x (ix2 r k) := by
  unfold k0_pay4; rw [shapeCast_self]
/-- The node rows in the narrower float format are the node rows. -/
theorem narrow_entry (k : Fin 128) : k0_pay5 x0 (ix2 r k) = x0 (ix2 r k) := rfl

/-- The four gates: linear images of the node's own row. -/
theorem gate6_entry (w : Vec Ideal S128x128 .bf16) (b : Vec Ideal S128 .f32) (q : Fin 128) :
    k0_pay6 x0 w b (ix2 r q) = lin (fun k => x0 (ix2 r k)) (wT w) (bv b) q :=
  layer (k0_pay5 x0) w b r q
theorem gate7_entry (w : Vec Ideal S128x128 .bf16) (b : Vec Ideal S128 .f32) (q : Fin 128) :
    k0_pay7 x0 w b (ix2 r q) = lin (fun k => x0 (ix2 r k)) (wT w) (bv b) q :=
  layer (k0_pay5 x0) w b r q
theorem gate8_entry (w : Vec Ideal S128x128 .bf16) (b : Vec Ideal S128 .f32) (q : Fin 128) :
    k0_pay8 x0 w b (ix2 r q) = lin (fun k => x0 (ix2 r k)) (wT w) (bv b) q :=
  layer (k0_pay5 x0) w b r q
theorem gate11_entry (w : Vec Ideal S128x128 .bf16) (b : Vec Ideal S128 .f32) (q : Fin 128) :
    k0_pay11 (k0_pay9 x0 w) (k0_pay10 b) (ix2 r q) = lin (fun k => x0 (ix2 r k)) (wT w) (bv b) q :=
  layer (k0_pay5 x0) w b r q

/-- A neighbour sum through a gated two-layer map whose gates are `g1` and `g2`. -/
theorem fr_entry (s g1 g2 : FVec Ideal S2000x128 .f32) (w1 : Vec Ideal S128x128 .bf16) (b1 : Vec Ideal S128 .f32)
    (w2 : Vec Ideal S128x128 .bf16) (b2 : Vec Ideal S128 .f32) (q : Fin 128) :
    k0_pay12 s g1 g2 w1 b1 w2 b2 (ix2 r q)
      = lin (fun k => lin (fun j => s (ix2 r j) * g1 (ix2 r j)) (wT w1) (bv b1) k * g2 (ix2 r k)) (wT w2) (bv b2) q :=
  twoLayers s g1 g2 w1 b1 w2 b2 r q
theorem be_entry (s g1 g2a g2b : FVec Ideal S2000x128 .f32) (w1 : Vec Ideal S128x128 .bf16) (b1 : Vec Ideal S128 .f32)
    (w2 : Vec Ideal S128x128 .bf16) (b2 : Vec Ideal S128 .f32) (q : Fin 128) :
    k0_pay13 s g1 g2a g2b w1 b1 w2 b2 (ix2 r q)
      = lin (fun k => lin (fun j => s (ix2 r j) * g1 (ix2 r j)) (wT w1) (bv b1) k * k0_pay11 g2a g2b (ix2 r k)) (wT w2) (bv b2) q :=
  twoLayers s g1 (k0_pay11 g2a g2b) w1 b1 w2 b2 r q
theorem unkfr_entry (s g1 g2 : FVec Ideal S2000x128 .f32) (w1 : Vec Ideal S128x128 .bf16) (b1 : Vec Ideal S128 .f32)
    (w2 : Vec Ideal S128x128 .bf16) (b2 : Vec Ideal S128 .f32) (q : Fin 128) :
    k0_pay16 g2 (k0_pay14 s g1) (k0_pay15 w1) (constant (F := Ideal) S2000x128 .f32 0x00000000#32) b1 w2 b2 (ix2 r q)
      = lin (fun k => lin (fun j => s (ix2 r j) * g1 (ix2 r j)) (wT w1) (bv b1) k * g2 (ix2 r k)) (wT w2) (bv b2) q :=
  twoLayers s g1 g2 w1 b1 w2 b2 r q
theorem unkbe_entry (s g1 g2 : FVec Ideal S2000x128 .f32) (w1 : Vec Ideal S128x128 .bf16) (b1 : Vec Ideal S128 .f32)
    (w2 : Vec Ideal S128x128 .bf16) (b2 : Vec Ideal S128 .f32) (q : Fin 128) :
    k0_pay17 s g1 g2 w1 b1 w2 b2 (ix2 r q)
      = lin (fun k => lin (fun j => s (ix2 r j) * g1 (ix2 r j)) (wT w1) (bv b1) k * g2 (ix2 r k)) (wT w2) (bv b2) q :=
  twoLayers s g1 g2 w1 b1 w2 b2 r q

/-- The rectified hidden row of the balance gate. -/
theorem hidden_entry (w : Vec Ideal S128x128 .bf16) (b : Vec Ideal S128 .f32) (k : Fin 128) :
    k0_pay18 (k0_pay5 x0) w b (ix2 r k) = max (lin (fun j => x0 (ix2 r j)) (wT w) (bv b) k) 0 := by
  show max ((addf (matmul dot_S2000x128_S128x128_S2000x128_1_0_0_1_n_n none (k0_pay5 x0) (shapeCast S128x128 w shapeCasts_S128x128_S128x128 : FVec Ideal S128x128 .bf16) (constant (F := Ideal) S2000x128 .f32 0x00000000#32)) (broadcastTo S2000x128 (shapeCast S1x128 b shapeCasts_S128_S1x128 : FVec Ideal S1x128 .f32) broadcasts_S1x128_S2000x128 : FVec Ideal S2000x128 .f32)) (ix2 r k)) (Ideal.ofBits .f32 0x00000000#32) = _
  rw [layer, Ideal.ofBits_zero_f32] <;> rfl

/-- The stored value at (r, q): the node's own linear image plus its neighbourhood term, rectified. -/
theorem store_entry (v7 : FVec Ideal S2000x128 .bf16) (v53 v71 v89 v107 : FVec Ideal S2000x128 .f32) (v117 : FVec Ideal S2000x128 .bf16)
    (v118 : Vec Ideal S128x1 .bf16) (v121 : Vec Ideal S1 .f32) (v135 : Vec Ideal S128x128 .bf16) (v138 : Vec Ideal S128 .f32) (q : Fin 128) :
    k0_pay1 v7 v53 v71 v89 v107 v117 v118 v121 v135 v138 (ix2 r q)
      = max (lin (fun k => v7 (ix2 r k)) (wT v135) (bv v138) q
          + ((v53 (ix2 r q) + v71 (ix2 r q))
            + (Ideal.logistic ((∑ k : Fin 128, v117 (ix2 r k) * v118 (ix2 k (0 : Fin 1))) + v121 (ix1 (0 : Fin 1))) * v89 (ix2 r q)
              + (1 - Ideal.logistic ((∑ k : Fin 128, v117 (ix2 r k) * v118 (ix2 k (0 : Fin 1))) + v121 (ix1 (0 : Fin 1)))) * v107 (ix2 r q)))) 0 := by
  have eL := layer v7 v135 v138 r q
  have eG := gateArg v117 v118 v121 r (0 : Fin 1)
  have eB : ∀ y : FVec Ideal S2000x1 .f32, (broadcastTo S2000x128 y broadcasts_S2000x1_S2000x128 : FVec Ideal S2000x128 .f32) (ix2 r q) = y (ix2 r (0 : Fin 1)) :=
    fun y => Cert.LibColumn.broadcastTo_a1_ab_apply y broadcasts_S2000x1_S2000x128 r q
  show max ((addf (matmul dot_S2000x128_S128x128_S2000x128_1_0_0_1_n_n none v7 (shapeCast S128x128 v135 shapeCasts_S128x128_S128x128 : FVec Ideal S128x128 .bf16) (constant (F := Ideal) S2000x128 .f32 0x00000000#32)) (broadcastTo S2000x128 (shapeCast S1x128 v138 shapeCasts_S128_S1x128 : FVec Ideal S1x128 .f32) broadcasts_S1x128_S2000x128 : FVec Ideal S2000x128 .f32)) (ix2 r q)
        + ((v53 (ix2 r q) + v71 (ix2 r q))
          + ((broadcastTo S2000x128 (logistic (addf (matmul dot_S2000x128_S128x1_S2000x1_1_0_0_1_n_n none v117 (shapeCast S128x1 v118 shapeCasts_S128x1_S128x1 : FVec Ideal S128x1 .bf16) (constant (F := Ideal) S2000x1 .f32 0x00000000#32)) (broadcastTo S2000x1 (shapeCast S1x1 v121 shapeCasts_S1_S1x1 : FVec Ideal S1x1 .f32) broadcasts_S1x1_S2000x1 : FVec Ideal S2000x1 .f32)) : FVec Ideal S2000x1 .f32) broadcasts_S2000x1_S2000x128 : FVec Ideal S2000x128 .f32) (ix2 r q) * v89 (ix2 r q)
            + (broadcastTo S2000x128 (subf (broadcast S2000x1 (Scalar.ofBits (F := Ideal) .f32 0x3F800000#32)) (logistic (addf (matmul dot_S2000x128_S128x1_S2000x1_1_0_0_1_n_n none v117 (shapeCast S128x1 v118 shapeCasts_S128x1_S128x1 : FVec Ideal S128x1 .bf16) (constant (F := Ideal) S2000x1 .f32 0x00000000#32)) (broadcastTo S2000x1 (shapeCast S1x1 v121 shapeCasts_S1_S1x1 : FVec Ideal S1x1 .f32) broadcasts_S1x1_S2000x1 : FVec Ideal S2000x1 .f32))) : FVec Ideal S2000x1 .f32) broadcasts_S2000x1_S2000x128 : FVec Ideal S2000x128 .f32) (ix2 r q) * v107 (ix2 r q))))
      (Ideal.ofBits .f32 0x00000000#32) = _
  rw [eL, eB, eB, Ideal.ofBits_zero_f32]
  show max (_ + (_ + (Ideal.logistic ((addf (matmul dot_S2000x128_S128x1_S2000x1_1_0_0_1_n_n none v117 (shapeCast S128x1 v118 shapeCasts_S128x1_S128x1 : FVec Ideal S128x1 .bf16) (constant (F := Ideal) S2000x1 .f32 0x00000000#32)) (broadcastTo S2000x1 (shapeCast S1x1 v121 shapeCasts_S1_S1x1 : FVec Ideal S1x1 .f32) broadcasts_S1x1_S2000x1 : FVec Ideal S2000x1 .f32)) (ix2 r (0 : Fin 1))) * _
      + (Ideal.ofBits .f32 0x3F800000#32 - Ideal.logistic ((addf (matmul dot_S2000x128_S128x1_S2000x1_1_0_0_1_n_n none v117 (shapeCast S128x1 v118 shapeCasts_S128x1_S128x1 : FVec Ideal S128x1 .bf16) (constant (F := Ideal) S2000x1 .f32 0x00000000#32)) (broadcastTo S2000x1 (shapeCast S1x1 v121 shapeCasts_S1_S1x1 : FVec Ideal S1x1 .f32) broadcasts_S1x1_S2000x1 : FVec Ideal S2000x1 .f32)) (ix2 r (0 : Fin 1)))) * _))) 0 = _
  rw [eG, Ideal.ofBits_one_f32]

/-! ## The whole payload -/

/-- Entry (r, q) of what the body stores, from the blocks it loads: the specification's row of the blocks' rows r. -/
theorem payload_entry (x4 : Vec Ideal S128x128 .bf16) (x5 : Vec Ideal S128 .f32) (x6 : Vec Ideal S128x128 .bf16) (x7 : Vec Ideal S128 .f32)
    (x8 : Vec Ideal S128x128 .bf16) (x9 : Vec Ideal S128 .f32) (x10 : Vec Ideal S128x128 .bf16) (x11 : Vec Ideal S128 .f32)
    (x12 : Vec Ideal S128x128 .bf16) (x13 : Vec Ideal S128 .f32) (x14 : Vec Ideal S128x128 .bf16) (x15 : Vec Ideal S128 .f32)
    (x16 : Vec Ideal S128x128 .bf16) (x17 : Vec Ideal S128 .f32) (x18 : Vec Ideal S128x128 .bf16) (x19 : Vec Ideal S128 .f32)
    (x20 : Vec Ideal S128x128 .bf16) (x21 : Vec Ideal S128 .f32) (x22 : Vec Ideal S128x1 .bf16) (x23 : Vec Ideal S1 .f32)
    (x24 : Vec Ideal S128x128 .bf16) (x25 : Vec Ideal S128 .f32) (q : Fin 128) :
    k0_pay1 (k0_pay5 x0)
        (k0_pay12 (k0_pay2 x1) (k0_pay6 x0 x6 x7) (k0_pay7 x0 x10 x11) x4 x5 x8 x9)
        (k0_pay13 (k0_pay3 x2) (k0_pay8 x0 x14 x15) (k0_pay9 x0 x18) (k0_pay10 x19) x12 x13 x16 x17)
        (k0_pay16 (k0_pay7 x0 x10 x11) (k0_pay14 (k0_pay4 x3) (k0_pay6 x0 x6 x7)) (k0_pay15 x4) (constant (F := Ideal) S2000x128 .f32 0x00000000#32) x5 x8 x9)
        (k0_pay17 (k0_pay4 x3) (k0_pay8 x0 x14 x15) (k0_pay11 (k0_pay9 x0 x18) (k0_pay10 x19)) x12 x13 x16 x17)
        (k0_pay18 (k0_pay5 x0) x20 x21) x22 x23 x24 x25 (ix2 r q)
      = row (fun k => x0 (ix2 r k)) (fun k => x1 (ix2 r k)) (fun k => x2 (ix2 r k)) (fun k => x3 (ix2 r k))
          (wT x4) (bv x5) (wT x6) (bv x7) (wT x8) (bv x9) (wT x10) (bv x11)
          (wT x12) (bv x13) (wT x14) (bv x15) (wT x16) (bv x17) (wT x18) (bv x19)
          (wT x20) (bv x21) (fun k => x22 (ix2 k (0 : Fin 1))) (x23 (ix1 (0 : Fin 1))) (wT x24) (bv x25) q := by
  rw [store_entry, fr_entry, be_entry, unkfr_entry, unkbe_entry]
  simp only [narrow_entry, cast_entry, cast_entry3, cast_entry4, gate6_entry, gate7_entry, gate8_entry, gate11_entry, hidden_entry]
  rfl

end Cert.KernelIdeal.RowValue

end
-- ==== Proof.HostWindows.lean ====
/-
  What the region finds in the arrays that the host wrote before the call. Each weight window is the parameter
  transposed (and changed to the narrower float format, which changes nothing on the extended reals): its entry
  (k, q) is the parameter's entry (q, k). The three neighbour sums are the host's scatter-adds of the gathered,
  label-masked rows; they are the very operations the reference applies to the same arguments, and are not opened.
-/
import proofs.«140283_j22926535426631_1_alg».proof.Proof.FrameKernelIdeal
import proofs.«140283_j22926535426631_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostWindows

open Cert.KernelIdeal Cert.KernelIdeal.Gen Cert.KernelIdeal.GenP
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The weight windows -/

theorem weight4 (c : Dev nD) (k q : Fin 128) :
    (V m c main_v42 : FVec Ideal S128x128 .bf16) (ix2 k q) = ((m ((c : Thread nD τ).loc main_arg1)) : FVec Ideal S128x128 .f32) (ix2 q k) := by
  have e : (V m c main_v42 : FVec Ideal S128x128 .bf16)
      = (truncf .bf16 (transpose S128x128 [1, 0] ((m ((c : Thread nD τ).loc main_arg1)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight6 (c : Dev nD) (k q : Fin 128) :
    (V m c main_v44 : FVec Ideal S128x128 .bf16) (ix2 k q) = ((m ((c : Thread nD τ).loc main_arg3)) : FVec Ideal S128x128 .f32) (ix2 q k) := by
  have e : (V m c main_v44 : FVec Ideal S128x128 .bf16)
      = (truncf .bf16 (transpose S128x128 [1, 0] ((m ((c : Thread nD τ).loc main_arg3)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight8 (c : Dev nD) (k q : Fin 128) :
    (V m c main_v46 : FVec Ideal S128x128 .bf16) (ix2 k q) = ((m ((c : Thread nD τ).loc main_arg5)) : FVec Ideal S128x128 .f32) (ix2 q k) := by
  have e : (V m c main_v46 : FVec Ideal S128x128 .bf16)
      = (truncf .bf16 (transpose S128x128 [1, 0] ((m ((c : Thread nD τ).loc main_arg5)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight10 (c : Dev nD) (k q : Fin 128) :
    (V m c main_v48 : FVec Ideal S128x128 .bf16) (ix2 k q) = ((m ((c : Thread nD τ).loc main_arg7)) : FVec Ideal S128x128 .f32) (ix2 q k) := by
  have e : (V m c main_v48 : FVec Ideal S128x128 .bf16)
      = (truncf .bf16 (transpose S128x128 [1, 0] ((m ((c : Thread nD τ).loc main_arg7)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight12 (c : Dev nD) (k q : Fin 128) :
    (V m c main_v50 : FVec Ideal S128x128 .bf16) (ix2 k q) = ((m ((c : Thread nD τ).loc main_arg9)) : FVec Ideal S128x128 .f32) (ix2 q k) := by
  have e : (V m c main_v50 : FVec Ideal S128x128 .bf16)
      = (truncf .bf16 (transpose S128x128 [1, 0] ((m ((c : Thread nD τ).loc main_arg9)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight14 (c : Dev nD) (k q : Fin 128) :
    (V m c main_v52 : FVec Ideal S128x128 .bf16) (ix2 k q) = ((m ((c : Thread nD τ).loc main_arg11)) : FVec Ideal S128x128 .f32) (ix2 q k) := by
  have e : (V m c main_v52 : FVec Ideal S128x128 .bf16)
      = (truncf .bf16 (transpose S128x128 [1, 0] ((m ((c : Thread nD τ).loc main_arg11)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight16 (c : Dev nD) (k q : Fin 128) :
    (V m c main_v54 : FVec Ideal S128x128 .bf16) (ix2 k q) = ((m ((c : Thread nD τ).loc main_arg13)) : FVec Ideal S128x128 .f32) (ix2 q k) := by
  have e : (V m c main_v54 : FVec Ideal S128x128 .bf16)
      = (truncf .bf16 (transpose S128x128 [1, 0] ((m ((c : Thread nD τ).loc main_arg13)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight18 (c : Dev nD) (k q : Fin 128) :
    (V m c main_v56 : FVec Ideal S128x128 .bf16) (ix2 k q) = ((m ((c : Thread nD τ).loc main_arg15)) : FVec Ideal S128x128 .f32) (ix2 q k) := by
  have e : (V m c main_v56 : FVec Ideal S128x128 .bf16)
      = (truncf .bf16 (transpose S128x128 [1, 0] ((m ((c : Thread nD τ).loc main_arg15)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight20 (c : Dev nD) (k q : Fin 128) :
    (V m c main_v58 : FVec Ideal S128x128 .bf16) (ix2 k q) = ((m ((c : Thread nD τ).loc main_arg17)) : FVec Ideal S128x128 .f32) (ix2 q k) := by
  have e : (V m c main_v58 : FVec Ideal S128x128 .bf16)
      = (truncf .bf16 (transpose S128x128 [1, 0] ((m ((c : Thread nD τ).loc main_arg17)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight24 (c : Dev nD) (k q : Fin 128) :
    (V m c main_v62 : FVec Ideal S128x128 .bf16) (ix2 k q) = ((m ((c : Thread nD τ).loc main_arg21)) : FVec Ideal S128x128 .f32) (ix2 q k) := by
  have e : (V m c main_v62 : FVec Ideal S128x128 .bf16)
      = (truncf .bf16 (transpose S128x128 [1, 0] ((m ((c : Thread nD τ).loc main_arg21)) : FVec Ideal S128x128 .f32) transposes_S128x128_S128x128_1_0 : FVec Ideal S128x128 .f32) bitsLt_bf16_f32 : FVec Ideal S128x128 .bf16) := by
    dsimp only [V, hostOps0]; after_results_simp <;> rfl
  rw [e, truncf_apply]
  exact transpose_ix2_apply _ transposes_S128x128_S128x128_1_0 k q

theorem weight22 (c : Dev nD) (k : Fin 128) :
    (V m c main_v60 : FVec Ideal S128x1 .bf16) (ix2 k (0 : Fin 1)) = ((m ((c : Thread nD τ).loc main_arg19)) : FVec Ideal S1x128 .f32) (ix2 (0 : Fin 1) k) := by
  have e : (V m c main_v60 : FVec Ideal S128x1 .bf16)
      = (truncf .bf16 (transpose S128x1 [1, 0] ((m ((c : Thread nD τ).loc main_arg19)) : FVec Ideal S1x128 .f32) transposes_S1x128_S128x1_1_0 : FVec Ideal S128x1 .f32) bitsLt_bf16_f32 : FVec Ideal S128x1 .bf16) := by
    dsimp only [V, hostOps0]; after_results_simp <;> rfl
  rw [e, truncf_apply]
  exact transpose_ix2_apply _ transposes_S1x128_S128x1_1_0 k (0 : Fin 1)

/-! ## The neighbour sums -/

theorem sum22 (c : Dev nD) :
    (V m c main_v22 : FVec Ideal S100000x128 .f32)
      = Cert.ReferenceIdeal.Read.val_main_v22 (F := Ideal) (m ((c : Thread nD τ).loc main_arg0)) (m ((c : Thread nD τ).loc main_arg23)) (m ((c : Thread nD τ).loc main_arg24)) (m ((c : Thread nD τ).loc main_arg25)) := by
  dsimp only [V, hostOps0]; after_results_simp <;> rfl

theorem sum31 (c : Dev nD) :
    (V m c main_v31 : FVec Ideal S100000x128 .f32)
      = Cert.ReferenceIdeal.Read.val_main_v31 (F := Ideal) (m ((c : Thread nD τ).loc main_arg0)) (m ((c : Thread nD τ).loc main_arg23)) (m ((c : Thread nD τ).loc main_arg24)) (m ((c : Thread nD τ).loc main_arg25)) := by
  dsimp only [V, hostOps0]; after_results_simp <;> rfl

theorem sum40 (c : Dev nD) :
    (V m c main_v40 : FVec Ideal S100000x128 .f32)
      = Cert.ReferenceIdeal.Read.val_main_v40 (F := Ideal) (m ((c : Thread nD τ).loc main_arg0)) (m ((c : Thread nD τ).loc main_arg23)) (m ((c : Thread nD τ).loc main_arg24)) (m ((c : Thread nD τ).loc main_arg25)) := by
  dsimp only [V, hostOps0]; after_results_simp <;> rfl

end Cert.KernelIdeal.HostWindows

end
-- ==== Proof.ArraySpec.lean ====
/-
  The layer's output over all 100000 nodes: entry (p, q) is the specification's `row` of node p's own rows, with
  the weights in the layout the layer's parameters come in (`W (q, k)` multiplies input k in output q; the gate's
  final weight is one row of 128; its final bias is one number).
-/
import proofs.«140283_j22926535426631_1_alg».proof.Proof.RowSpec

noncomputable section

namespace Cert.NodeRow

open Idealize.ShloMosaic Idealize.ShloMosaic.ValueIdx

/-- A feature array over the nodes. -/
abbrev Nodes := (⟨2, ![100000, 128]⟩ : Shape).Idx → EReal
/-- A square weight. -/
abbrev Mat := (⟨2, ![128, 128]⟩ : Shape).Idx → EReal
/-- A bias. -/
abbrev Vect := (⟨1, ![128]⟩ : Shape).Idx → EReal

/-- A weight as a coefficient table. -/
abbrev cf (W : Mat) : Coef := fun q k => W (ix2 q k)
/-- A bias as a row. -/
abbrev rb (b : Vect) : Row := fun q => b (ix1 q)

/-- The output array as one function of the node features `h`, the three neighbour sums and the 22 parameters. -/
def output (h sfr sbe sunk : Nodes)
    (fW1 : Mat) (fb1 : Vect) (fT1 : Mat) (fc1 : Vect) (fW2 : Mat) (fb2 : Vect) (fT2 : Mat) (fc2 : Vect)
    (gW1 : Mat) (gb1 : Vect) (gT1 : Mat) (gc1 : Vect) (gW2 : Mat) (gb2 : Vect) (gT2 : Mat) (gc2 : Vect)
    (U : Mat) (a : Vect) (v : (⟨2, ![1, 128]⟩ : Shape).Idx → EReal) (d : (⟨1, ![1]⟩ : Shape).Idx → EReal)
    (sW : Mat) (sb : Vect) : Nodes :=
  fun i => row (fun k => h (ix2 (i 0) k)) (fun k => sfr (ix2 (i 0) k)) (fun k => sbe (ix2 (i 0) k)) (fun k => sunk (ix2 (i 0) k))
    (cf fW1) (rb fb1) (cf fT1) (rb fc1) (cf fW2) (rb fb2) (cf fT2) (rb fc2)
    (cf gW1) (rb gb1) (cf gT1) (rb gc1) (cf gW2) (rb gb2) (cf gT2) (rb gc2)
    (cf U) (rb a) (fun k => v (ix2 (0 : Fin 1) k)) (d (ix1 (0 : Fin 1))) (cf sW) (rb sb) (i 1)

end Cert.NodeRow

end
-- ==== Proof.KernelBlocks.lean ====
/-
  The staged blocks of the node kernel, read where the output's block says. The grid has 50 points; point t stages
  rows 2000·t … 2000·t + 1999 of the four node arrays and of the output, and every weight whole: the index maps are
  decided once over the 50 points, and each window's block at a point is then read as its array at the embedded index.
-/
import proofs.«140283_j22926535426631_1_alg».proof.Proof.FrameKernelIdeal
import proofs.«140283_j22926535426631_1_alg».proof.Proof.KernelRow
import proofs.«140283_j22926535426631_1_alg».proof.Proof.HostWindows
import proofs.«140283_j22926535426631_1_alg».proof.Proof.ArraySpec
import Idealize.ShloMosaic.Lib.Pipeline.Value
import Idealize.ShloMosaic.Lib.ValueIdx

noncomputable section

namespace Cert.KernelIdeal.ArrayValue

open Cert.KernelIdeal Cert.KernelIdeal.Gen Cert.KernelIdeal.GenP
open Idealize.ShloMosaic Idealize.ShloMosaic.TcCoe Idealize.SL.Sem Idealize.ShloMosaic.ValueIdx Cert.NodeRow
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The specification's output of the arrays as the region finds them. -/
abbrev result (c : Dev nD) : (⟨S100000x128, .f32⟩ : BufTy).Contents (Elt Ideal) :=
  output (V m c main_arg0) (V m c main_v22) (V m c main_v31) (V m c main_v40) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-! ## The index maps, decided over the 50 points -/

/-- The four node windows move with the output window along the rows and do not move along the columns. -/
theorem rows_with_output : ∀ t : Fin cfg0.N, win0_0.index t (0 : Fin 2) = win0_26.index t (0 : Fin 2)
    ∧ win0_0.index t (1 : Fin 2) = 0
    ∧ win0_1.index t (0 : Fin 2) = win0_26.index t (0 : Fin 2)
    ∧ win0_1.index t (1 : Fin 2) = 0
    ∧ win0_2.index t (0 : Fin 2) = win0_26.index t (0 : Fin 2)
    ∧ win0_2.index t (1 : Fin 2) = 0
    ∧ win0_3.index t (0 : Fin 2) = win0_26.index t (0 : Fin 2)
    ∧ win0_3.index t (1 : Fin 2) = 0
    ∧ win0_26.index t (1 : Fin 2) = 0 :=
  (by decide +kernel : ∀ t : Fin grid0.N, _)

/-- The weight windows do not move. -/
theorem weights_fixed : ∀ t : Fin cfg0.N, win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 2) = 0
    ∧ win0_14.index t (1 : Fin 2) = 0
    ∧ win0_15.index t (0 : Fin 1) = 0
    ∧ win0_16.index t (0 : Fin 2) = 0
    ∧ win0_16.index t (1 : Fin 2) = 0
    ∧ win0_17.index t (0 : Fin 1) = 0
    ∧ win0_18.index t (0 : Fin 2) = 0
    ∧ win0_18.index t (1 : Fin 2) = 0
    ∧ win0_19.index t (0 : Fin 1) = 0
    ∧ win0_20.index t (0 : Fin 2) = 0
    ∧ win0_20.index t (1 : Fin 2) = 0
    ∧ win0_21.index t (0 : Fin 1) = 0
    ∧ win0_22.index t (0 : Fin 2) = 0
    ∧ win0_22.index t (1 : Fin 2) = 0
    ∧ win0_23.index t (0 : Fin 1) = 0
    ∧ win0_24.index t (0 : Fin 2) = 0
    ∧ win0_24.index t (1 : Fin 2) = 0
    ∧ win0_25.index t (0 : Fin 1) = 0 :=
  (by decide +kernel : ∀ t : Fin grid0.N, _)

/-- Every one of the 50 row blocks of the output is some point's. -/
theorem block_onto : ∀ b : Fin 50, ∃ t : Fin cfg0.N, win0_26.index t = ![b.val, 0] :=
  (by decide +kernel : ∀ b : Fin 50, ∃ t : Fin grid0.N, win0_26.index t = ![b.val, 0])

/-! ## A window's block, read off any array of the window's type

Each is stated for an arbitrary array `X`: the statement is about the window's rectangle only, whatever the array holds. -/

section Blocks

variable (c : Dev nD) (t : Fin cfg0.N)

/-- Row r of node window 0's block at point t is the array's row that the output's block puts entry (r, q) in. -/
theorem rowsOf0 (X : Buf (Elt Ideal) ((c : Thread nD τ).loc main_arg0)) (r : Fin 2000) (q k : Fin 128) :
    (((cfg0.win 0).blk t).view.read (Elt Ideal) X : Vec Ideal S2000x128 .f32) (ix2 r k)
      = (X : FVec Ideal S100000x128 .f32) (ix2 ((((cfg0.win 26).blk t).view.emb (ix2 r q)) 0) k) := by
  obtain ⟨n0a, n0b, n1a, n1b, n2a, n2b, n3a, n3b, o1⟩ := rows_with_output t
  show (X : FVec Ideal S100000x128 .f32) (((cfg0.win 0).blk t).view.emb (ix2 r k)) = _
  refine congrArg (X : FVec Ideal S100000x128 .f32) (funext fun a => Fin.ext ?_)
  match a with
  | ⟨0, _⟩ => show win0_0.index t (0 : Fin 2) * 2000 + 1 * r.val = win0_26.index t (0 : Fin 2) * 2000 + 1 * r.val; omega
  | ⟨1, _⟩ => show win0_0.index t (1 : Fin 2) * 128 + 1 * k.val = k.val; omega

theorem nodeRows0 (r : Fin 2000) (q : Fin 128) :
    (fun k : Fin 128 => (iblk m c 0 t : Vec Ideal S2000x128 .f32) (ix2 r k)) = fun k => (V m c main_arg0 : FVec Ideal S100000x128 .f32) (ix2 ((((cfg0.win 26).blk t).view.emb (ix2 r q)) 0) k) :=
  funext fun k => rowsOf0 c t (V m c main_arg0) r q k

/-- Row r of node window 1's block at point t is the array's row that the output's block puts entry (r, q) in. -/
theorem rowsOf1 (X : Buf (Elt Ideal) ((c : Thread nD τ).loc main_v22)) (r : Fin 2000) (q k : Fin 128) :
    (((cfg0.win 1).blk t).view.read (Elt Ideal) X : Vec Ideal S2000x128 .f32) (ix2 r k)
      = (X : FVec Ideal S100000x128 .f32) (ix2 ((((cfg0.win 26).blk t).view.emb (ix2 r q)) 0) k) := by
  obtain ⟨n0a, n0b, n1a, n1b, n2a, n2b, n3a, n3b, o1⟩ := rows_with_output t
  show (X : FVec Ideal S100000x128 .f32) (((cfg0.win 1).blk t).view.emb (ix2 r k)) = _
  refine congrArg (X : FVec Ideal S100000x128 .f32) (funext fun a => Fin.ext ?_)
  match a with
  | ⟨0, _⟩ => show win0_1.index t (0 : Fin 2) * 2000 + 1 * r.val = win0_26.index t (0 : Fin 2) * 2000 + 1 * r.val; omega
  | ⟨1, _⟩ => show win0_1.index t (1 : Fin 2) * 128 + 1 * k.val = k.val; omega

theorem nodeRows1 (r : Fin 2000) (q : Fin 128) :
    (fun k : Fin 128 => (iblk m c 1 t : Vec Ideal S2000x128 .f32) (ix2 r k)) = fun k => (V m c main_v22 : FVec Ideal S100000x128 .f32) (ix2 ((((cfg0.win 26).blk t).view.emb (ix2 r q)) 0) k) :=
  funext fun k => rowsOf1 c t (V m c main_v22) r q k

/-- Row r of node window 2's block at point t is the array's row that the output's block puts entry (r, q) in. -/
theorem rowsOf2 (X : Buf (Elt Ideal) ((c : Thread nD τ).loc main_v31)) (r : Fin 2000) (q k : Fin 128) :
    (((cfg0.win 2).blk t).view.read (Elt Ideal) X : Vec Ideal S2000x128 .f32) (ix2 r k)
      = (X : FVec Ideal S100000x128 .f32) (ix2 ((((cfg0.win 26).blk t).view.emb (ix2 r q)) 0) k) := by
  obtain ⟨n0a, n0b, n1a, n1b, n2a, n2b, n3a, n3b, o1⟩ := rows_with_output t
  show (X : FVec Ideal S100000x128 .f32) (((cfg0.win 2).blk t).view.emb (ix2 r k)) = _
  refine congrArg (X : FVec Ideal S100000x128 .f32) (funext fun a => Fin.ext ?_)
  match a with
  | ⟨0, _⟩ => show win0_2.index t (0 : Fin 2) * 2000 + 1 * r.val = win0_26.index t (0 : Fin 2) * 2000 + 1 * r.val; omega
  | ⟨1, _⟩ => show win0_2.index t (1 : Fin 2) * 128 + 1 * k.val = k.val; omega

theorem nodeRows2 (r : Fin 2000) (q : Fin 128) :
    (fun k : Fin 128 => (iblk m c 2 t : Vec Ideal S2000x128 .f32) (ix2 r k)) = fun k => (V m c main_v31 : FVec Ideal S100000x128 .f32) (ix2 ((((cfg0.win 26).blk t).view.emb (ix2 r q)) 0) k) :=
  funext fun k => rowsOf2 c t (V m c main_v31) r q k

/-- Row r of node window 3's block at point t is the array's row that the output's block puts entry (r, q) in. -/
theorem rowsOf3 (X : Buf (Elt Ideal) ((c : Thread nD τ).loc main_v40)) (r : Fin 2000) (q k : Fin 128) :
    (((cfg0.win 3).blk t).view.read (Elt Ideal) X : Vec Ideal S2000x128 .f32) (ix2 r k)
      = (X : FVec Ideal S100000x128 .f32) (ix2 ((((cfg0.win 26).blk t).view.emb (ix2 r q)) 0) k) := by
  obtain ⟨n0a, n0b, n1a, n1b, n2a, n2b, n3a, n3b, o1⟩ := rows_with_output t
  show (X : FVec Ideal S100000x128 .f32) (((cfg0.win 3).blk t).view.emb (ix2 r k)) = _
  refine congrArg (X : FVec Ideal S100000x128 .f32) (funext fun a => Fin.ext ?_)
  match a with
  | ⟨0, _⟩ => show win0_3.index t (0 : Fin 2) * 2000 + 1 * r.val = win0_26.index t (0 : Fin 2) * 2000 + 1 * r.val; omega
  | ⟨1, _⟩ => show win0_3.index t (1 : Fin 2) * 128 + 1 * k.val = k.val; omega

theorem nodeRows3 (r : Fin 2000) (q : Fin 128) :
    (fun k : Fin 128 => (iblk m c 3 t : Vec Ideal S2000x128 .f32) (ix2 r k)) = fun k => (V m c main_v40 : FVec Ideal S100000x128 .f32) (ix2 ((((cfg0.win 26).blk t).view.emb (ix2 r q)) 0) k) :=
  funext fun k => rowsOf3 c t (V m c main_v40) r q k

theorem wholeOf4 (X : Buf (Elt Ideal) ((c : Thread nD τ).loc main_v42)) (k q' : Fin 128) :
    (((cfg0.win 4).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 4).blk t).view.emb (ix2 k q')) = _
  refine congrArg (X : FVec Ideal S128x128 .bf16) (funext fun a => Fin.ext ?_)
  match a with
  | ⟨0, _⟩ => show win0_4.index t (0 : Fin 2) * 128 + 1 * k.val = k.val; omega
  | ⟨1, _⟩ => show win0_4.index t (1 : Fin 2) * 128 + 1 * q'.val = q'.val; omega

theorem weightBlock4 : RowValue.wT (iblk m c 4 t) = cf (m ((c : Thread nD τ).loc main_arg1)) :=
  funext fun q' => funext fun k => (wholeOf4 c t (V m c main_v42) k q').trans (HostWindows.weight4 m c k q')

theorem wholeOf5 (X : Buf (Elt Ideal) ((c : Thread nD τ).loc main_arg2)) (q' : Fin 128) :
    (((cfg0.win 5).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 5).blk t).view.emb (ix1 q')) = _
  refine congrArg (X : FVec Ideal S128 .f32) (funext fun a => Fin.ext ?_)
  match a with
  | ⟨0, _⟩ => show win0_5.index t (0 : Fin 1) * 128 + 1 * q'.val = q'.val; omega

theorem biasBlock5 : RowValue.bv (iblk m c 5 t) = rb (m ((c : Thread nD τ).loc main_arg2)) :=
  funext fun q' => (wholeOf5 c t (V m c main_arg2) q').trans (congrFun (V_main_arg2 m c) (ix1 q'))

theorem wholeOf6 (X : Buf (Elt Ideal) ((c : Thread nD τ).loc main_v44)) (k q' : Fin 128) :
    (((cfg0.win 6).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 6).blk t).view.emb (ix2 k q')) = _
  refine congrArg (X : FVec Ideal S128x128 .bf16) (funext fun a => Fin.ext ?_)
  match a with
  | ⟨0, _⟩ => show win0_6.index t (0 : Fin 2) * 128 + 1 * k.val = k.val; omega
  | ⟨1, _⟩ => show win0_6.index t (1 : Fin 2) * 128 + 1 * q'.val = q'.val; omega

theorem weightBlock6 : RowValue.wT (iblk m c 6 t) = cf (m ((c : Thread nD τ).loc main_arg3)) :=
  funext fun q' => funext fun k => (wholeOf6 c t (V m c main_v44) k q').trans (HostWindows.weight6 m c k q')

theorem wholeOf7 (X : Buf (Elt Ideal) ((c : Thread nD τ).loc main_arg4)) (q' : Fin 128) :
    (((cfg0.win 7).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 7).blk t).view.emb (ix1 q')) = _
  refine congrArg (X : FVec Ideal S128 .f32) (funext fun a => Fin.ext ?_)
  match a with
  | ⟨0, _⟩ => show win0_7.index t (0 : Fin 1) * 128 + 1 * q'.val = q'.val; omega

theorem biasBlock7 : RowValue.bv (iblk m c 7 t) = rb (m ((c : Thread nD τ).loc main_arg4)) :=
  funext fun q' => (wholeOf7 c t (V m c main_arg4) q').trans (congrFun (V_main_arg4 m c) (ix1 q'))

theorem wholeOf8 (X : Buf (Elt Ideal) ((c : Thread nD τ).loc main_v46)) (k q' : Fin 128) :
    (((cfg0.win 8).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 8).blk t).view.emb (ix2 k q')) = _
  refine congrArg (X : FVec Ideal S128x128 .bf16) (funext fun a => Fin.ext ?_)
  match a with
  | ⟨0, _⟩ => show win0_8.index t (0 : Fin 2) * 128 + 1 * k.val = k.val; omega
  | ⟨1, _⟩ => show win0_8.index t (1 : Fin 2) * 128 + 1 * q'.val = q'.val; omega

theorem weightBlock8 : RowValue.wT (iblk m c 8 t) = cf (m ((c : Thread nD τ).loc main_arg5)) :=
  funext fun q' => funext fun k => (wholeOf8 c t (V m c main_v46) k q').trans (HostWindows.weight8 m c k q')

theorem wholeOf9 (X : Buf (Elt Ideal) ((c : Thread nD τ).loc main_arg6)) (q' : Fin 128) :
    (((cfg0.win 9).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 9).blk t).view.emb (ix1 q')) = _
  refine congrArg (X : FVec Ideal S128 .f32) (funext fun a => Fin.ext ?_)
  match a with
  | ⟨0, _⟩ => show win0_9.index t (0 : Fin 1) * 128 + 1 * q'.val = q'.val; omega

theorem biasBlock9 : RowValue.bv (iblk m c 9 t) = rb (m ((c : Thread nD τ).loc main_arg6)) :=
  funext fun q' => (wholeOf9 c t (V m c main_arg6) q').trans (congrFun (V_main_arg6 m c) (ix1 q'))

theorem wholeOf10 (X : Buf (Elt Ideal) ((c : Thread nD τ).loc main_v48)) (k q' : Fin 128) :
    (((cfg0.win 10).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 10).blk t).view.emb (ix2 k q')) = _
  refine congrArg (X : FVec Ideal S128x128 .bf16) (funext fun a => Fin.ext ?_)
  match a with
  | ⟨0, _⟩ => show win0_10.index t (0 : Fin 2) * 128 + 1 * k.val = k.val; omega
  | ⟨1, _⟩ => show win0_10.index t (1 : Fin 2) * 128 + 1 * q'.val = q'.val; omega

theorem weightBlock10 : RowValue.wT (iblk m c 10 t) = cf (m ((c : Thread nD τ).loc main_arg7)) :=
  funext fun q' => funext fun k => (wholeOf10 c t (V m c main_v48) k q').trans (HostWindows.weight10 m c k q')

theorem wholeOf11 (X : Buf (Elt Ideal) ((c : Thread nD τ).loc main_arg8)) (q' : Fin 128) :
    (((cfg0.win 11).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 11).blk t).view.emb (ix1 q')) = _
  refine congrArg (X : FVec Ideal S128 .f32) (funext fun a => Fin.ext ?_)
  match a with
  | ⟨0, _⟩ => show win0_11.index t (0 : Fin 1) * 128 + 1 * q'.val = q'.val; omega

theorem biasBlock11 : RowValue.bv (iblk m c 11 t) = rb (m ((c : Thread nD τ).loc main_arg8)) :=
  funext fun q' => (wholeOf11 c t (V m c main_arg8) q').trans (congrFun (V_main_arg8 m c) (ix1 q'))

theorem wholeOf12 (X : Buf (Elt Ideal) ((c : Thread nD τ).loc main_v50)) (k q' : Fin 128) :
    (((cfg0.win 12).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 12).blk t).view.emb (ix2 k q')) = _
  refine congrArg (X : FVec Ideal S128x128 .bf16) (funext fun a => Fin.ext ?_)
  match a with
  | ⟨0, _⟩ => show win0_12.index t (0 : Fin 2) * 128 + 1 * k.val = k.val; omega
  | ⟨1, _⟩ => show win0_12.index t (1 : Fin 2) * 128 + 1 * q'.val = q'.val; omega

theorem weightBlock12 : RowValue.wT (iblk m c 12 t) = cf (m ((c : Thread nD τ).loc main_arg9)) :=
  funext fun q' => funext fun k => (wholeOf12 c t (V m c main_v50) k q').trans (HostWindows.weight12 m c k q')

theorem wholeOf13 (X : Buf (Elt Ideal) ((c : Thread nD τ).loc main_arg10)) (q' : Fin 128) :
    (((cfg0.win 13).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 13).blk t).view.emb (ix1 q')) = _
  refine congrArg (X : FVec Ideal S128 .f32) (funext fun a => Fin.ext ?_)
  match a with
  | ⟨0, _⟩ => show win0_13.index t (0 : Fin 1) * 128 + 1 * q'.val = q'.val; omega

theorem biasBlock13 : RowValue.bv (iblk m c 13 t) = rb (m ((c : Thread nD τ).loc main_arg10)) :=
  funext fun q' => (wholeOf13 c t (V m c main_arg10) q').trans (congrFun (V_main_arg10 m c) (ix1 q'))

theorem wholeOf14 (X : Buf (Elt Ideal) ((c : Thread nD τ).loc main_v52)) (k q' : Fin 128) :
    (((cfg0.win 14).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 14).blk t).view.emb (ix2 k q')) = _
  refine congrArg (X : FVec Ideal S128x128 .bf16) (funext fun a => Fin.ext ?_)
  match a with
  | ⟨0, _⟩ => show win0_14.index t (0 : Fin 2) * 128 + 1 * k.val = k.val; omega
  | ⟨1, _⟩ => show win0_14.index t (1 : Fin 2) * 128 + 1 * q'.val = q'.val; omega

theorem weightBlock14 : RowValue.wT (iblk m c 14 t) = cf (m ((c : Thread nD τ).loc main_arg11)) :=
  funext fun q' => funext fun k => (wholeOf14 c t (V m c main_v52) k q').trans (HostWindows.weight14 m c k q')

theorem wholeOf15 (X : Buf (Elt Ideal) ((c : Thread nD τ).loc main_arg12)) (q' : Fin 128) :
    (((cfg0.win 15).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 15).blk t).view.emb (ix1 q')) = _
  refine congrArg (X : FVec Ideal S128 .f32) (funext fun a => Fin.ext ?_)
  match a with
  | ⟨0, _⟩ => show win0_15.index t (0 : Fin 1) * 128 + 1 * q'.val = q'.val; omega

theorem biasBlock15 : RowValue.bv (iblk m c 15 t) = rb (m ((c : Thread nD τ).loc main_arg12)) :=
  funext fun q' => (wholeOf15 c t (V m c main_arg12) q').trans (congrFun (V_main_arg12 m c) (ix1 q'))

theorem wholeOf16 (X : Buf (Elt Ideal) ((c : Thread nD τ).loc main_v54)) (k q' : Fin 128) :
    (((cfg0.win 16).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 16).blk t).view.emb (ix2 k q')) = _
  refine congrArg (X : FVec Ideal S128x128 .bf16) (funext fun a => Fin.ext ?_)
  match a with
  | ⟨0, _⟩ => show win0_16.index t (0 : Fin 2) * 128 + 1 * k.val = k.val; omega
  | ⟨1, _⟩ => show win0_16.index t (1 : Fin 2) * 128 + 1 * q'.val = q'.val; omega

theorem weightBlock16 : RowValue.wT (iblk m c 16 t) = cf (m ((c : Thread nD τ).loc main_arg13)) :=
  funext fun q' => funext fun k => (wholeOf16 c t (V m c main_v54) k q').trans (HostWindows.weight16 m c k q')

theorem wholeOf17 (X : Buf (Elt Ideal) ((c : Thread nD τ).loc main_arg14)) (q' : Fin 128) :
    (((cfg0.win 17).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 17).blk t).view.emb (ix1 q')) = _
  refine congrArg (X : FVec Ideal S128 .f32) (funext fun a => Fin.ext ?_)
  match a with
  | ⟨0, _⟩ => show win0_17.index t (0 : Fin 1) * 128 + 1 * q'.val = q'.val; omega

theorem biasBlock17 : RowValue.bv (iblk m c 17 t) = rb (m ((c : Thread nD τ).loc main_arg14)) :=
  funext fun q' => (wholeOf17 c t (V m c main_arg14) q').trans (congrFun (V_main_arg14 m c) (ix1 q'))

theorem wholeOf18 (X : Buf (Elt Ideal) ((c : Thread nD τ).loc main_v56)) (k q' : Fin 128) :
    (((cfg0.win 18).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 18).blk t).view.emb (ix2 k q')) = _
  refine congrArg (X : FVec Ideal S128x128 .bf16) (funext fun a => Fin.ext ?_)
  match a with
  | ⟨0, _⟩ => show win0_18.index t (0 : Fin 2) * 128 + 1 * k.val = k.val; omega
  | ⟨1, _⟩ => show win0_18.index t (1 : Fin 2) * 128 + 1 * q'.val = q'.val; omega

theorem weightBlock18 : RowValue.wT (iblk m c 18 t) = cf (m ((c : Thread nD τ).loc main_arg15)) :=
  funext fun q' => funext fun k => (wholeOf18 c t (V m c main_v56) k q').trans (HostWindows.weight18 m c k q')

theorem wholeOf19 (X : Buf (Elt Ideal) ((c : Thread nD τ).loc main_arg16)) (q' : Fin 128) :
    (((cfg0.win 19).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 19).blk t).view.emb (ix1 q')) = _
  refine congrArg (X : FVec Ideal S128 .f32) (funext fun a => Fin.ext ?_)
  match a with
  | ⟨0, _⟩ => show win0_19.index t (0 : Fin 1) * 128 + 1 * q'.val = q'.val; omega

theorem biasBlock19 : RowValue.bv (iblk m c 19 t) = rb (m ((c : Thread nD τ).loc main_arg16)) :=
  funext fun q' => (wholeOf19 c t (V m c main_arg16) q').trans (congrFun (V_main_arg16 m c) (ix1 q'))

theorem wholeOf20 (X : Buf (Elt Ideal) ((c : Thread nD τ).loc main_v58)) (k q' : Fin 128) :
    (((cfg0.win 20).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 20).blk t).view.emb (ix2 k q')) = _
  refine congrArg (X : FVec Ideal S128x128 .bf16) (funext fun a => Fin.ext ?_)
  match a with
  | ⟨0, _⟩ => show win0_20.index t (0 : Fin 2) * 128 + 1 * k.val = k.val; omega
  | ⟨1, _⟩ => show win0_20.index t (1 : Fin 2) * 128 + 1 * q'.val = q'.val; omega

theorem weightBlock20 : RowValue.wT (iblk m c 20 t) = cf (m ((c : Thread nD τ).loc main_arg17)) :=
  funext fun q' => funext fun k => (wholeOf20 c t (V m c main_v58) k q').trans (HostWindows.weight20 m c k q')

theorem wholeOf21 (X : Buf (Elt Ideal) ((c : Thread nD τ).loc main_arg18)) (q' : Fin 128) :
    (((cfg0.win 21).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 21).blk t).view.emb (ix1 q')) = _
  refine congrArg (X : FVec Ideal S128 .f32) (funext fun a => Fin.ext ?_)
  match a with
  | ⟨0, _⟩ => show win0_21.index t (0 : Fin 1) * 128 + 1 * q'.val = q'.val; omega

theorem biasBlock21 : RowValue.bv (iblk m c 21 t) = rb (m ((c : Thread nD τ).loc main_arg18)) :=
  funext fun q' => (wholeOf21 c t (V m c main_arg18) q').trans (congrFun (V_main_arg18 m c) (ix1 q'))

/-- The gate's one-column weight window is staged whole. -/
theorem wholeOf22 (X : Buf (Elt Ideal) ((c : Thread nD τ).loc main_v60)) (k : Fin 128) :
    (((cfg0.win 22).blk t).view.read (Elt Ideal) X : Vec Ideal S128x1 .bf16) (ix2 k (0 : Fin 1)) = (X : FVec Ideal S128x1 .bf16) (ix2 k (0 : Fin 1)) := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x1 .bf16) (((cfg0.win 22).blk t).view.emb (ix2 k (0 : Fin 1))) = _
  refine congrArg (X : FVec Ideal S128x1 .bf16) (funext fun a => Fin.ext ?_)
  match a with
  | ⟨0, _⟩ => show win0_22.index t (0 : Fin 2) * 128 + 1 * k.val = k.val; omega
  | ⟨1, _⟩ => show win0_22.index t (1 : Fin 2) * 1 + 1 * 0 = 0; omega

theorem gateWeight :
    (fun k : Fin 128 => (iblk m c 22 t : Vec Ideal S128x1 .bf16) (ix2 k (0 : Fin 1))) = fun k => ((m ((c : Thread nD τ).loc main_arg19)) : FVec Ideal S1x128 .f32) (ix2 (0 : Fin 1) k) :=
  funext fun k => (wholeOf22 c t (V m c main_v60) k).trans (HostWindows.weight22 m c k)

/-- The gate's one-entry bias window is staged whole. -/
theorem wholeOf23 (X : Buf (Elt Ideal) ((c : Thread nD τ).loc main_arg20)) :
    (((cfg0.win 23).blk t).view.read (Elt Ideal) X : Vec Ideal S1 .f32) (ix1 (0 : Fin 1)) = (X : FVec Ideal S1 .f32) (ix1 (0 : Fin 1)) := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S1 .f32) (((cfg0.win 23).blk t).view.emb (ix1 (0 : Fin 1))) = _
  refine congrArg (X : FVec Ideal S1 .f32) (funext fun a => Fin.ext ?_)
  match a with
  | ⟨0, _⟩ => show win0_23.index t (0 : Fin 1) * 1 + 1 * 0 = 0; omega

theorem gateBias :
    (iblk m c 23 t : Vec Ideal S1 .f32) (ix1 (0 : Fin 1)) = ((m ((c : Thread nD τ).loc main_arg20)) : FVec Ideal S1 .f32) (ix1 (0 : Fin 1)) :=
  (wholeOf23 c t (V m c main_arg20)).trans (congrFun (V_main_arg20 m c) (ix1 (0 : Fin 1)))

theorem wholeOf24 (X : Buf (Elt Ideal) ((c : Thread nD τ).loc main_v62)) (k q' : Fin 128) :
    (((cfg0.win 24).blk t).view.read (Elt Ideal) X : Vec Ideal S128x128 .bf16) (ix2 k q') = (X : FVec Ideal S128x128 .bf16) (ix2 k q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128x128 .bf16) (((cfg0.win 24).blk t).view.emb (ix2 k q')) = _
  refine congrArg (X : FVec Ideal S128x128 .bf16) (funext fun a => Fin.ext ?_)
  match a with
  | ⟨0, _⟩ => show win0_24.index t (0 : Fin 2) * 128 + 1 * k.val = k.val; omega
  | ⟨1, _⟩ => show win0_24.index t (1 : Fin 2) * 128 + 1 * q'.val = q'.val; omega

theorem weightBlock24 : RowValue.wT (iblk m c 24 t) = cf (m ((c : Thread nD τ).loc main_arg21)) :=
  funext fun q' => funext fun k => (wholeOf24 c t (V m c main_v62) k q').trans (HostWindows.weight24 m c k q')

theorem wholeOf25 (X : Buf (Elt Ideal) ((c : Thread nD τ).loc main_arg22)) (q' : Fin 128) :
    (((cfg0.win 25).blk t).view.read (Elt Ideal) X : Vec Ideal S128 .f32) (ix1 q') = (X : FVec Ideal S128 .f32) (ix1 q') := by
  obtain ⟨z4a, z4b, z5, z6a, z6b, z7, z8a, z8b, z9, z10a, z10b, z11, z12a, z12b, z13, z14a, z14b, z15, z16a, z16b, z17, z18a, z18b, z19, z20a, z20b, z21, z22a, z22b, z23, z24a, z24b, z25⟩ := weights_fixed t
  show (X : FVec Ideal S128 .f32) (((cfg0.win 25).blk t).view.emb (ix1 q')) = _
  refine congrArg (X : FVec Ideal S128 .f32) (funext fun a => Fin.ext ?_)
  match a with
  | ⟨0, _⟩ => show win0_25.index t (0 : Fin 1) * 128 + 1 * q'.val = q'.val; omega

theorem biasBlock25 : RowValue.bv (iblk m c 25 t) = rb (m ((c : Thread nD τ).loc main_arg22)) :=
  funext fun q' => (wholeOf25 c t (V m c main_arg22) q').trans (congrFun (V_main_arg22 m c) (ix1 q'))

/-- The output block's embedding of (r, q) keeps the column. -/
theorem outColumn (r : Fin 2000) (q : Fin 128) : (((cfg0.win 26).blk t).view.emb (ix2 r q)) = ix2 ((((cfg0.win 26).blk t).view.emb (ix2 r q)) 0) q := funext fun a => Fin.ext (by
  obtain ⟨n0a, n0b, n1a, n1b, n2a, n2b, n3a, n3b, o1⟩ := rows_with_output t
  match a with
  | ⟨0, _⟩ => rfl
  | ⟨1, _⟩ => show win0_26.index t (1 : Fin 2) * 128 + 1 * q.val = q.val; omega)

end Blocks

end Cert.KernelIdeal.ArrayValue

end
-- ==== Proof.KernelArray.lean ====
/-
  From blocks to the array. What point t writes back is, entry by entry, the specification's output of the arrays as
  the region finds them, read through the point's block: the body's entry (r, q) depends on row r of the staged blocks
  only, and row r of point t's block is row 2000·t + r of the array. The 50 blocks tile the output array, so after the
  run it holds the specification's output everywhere.
-/
import proofs.«140283_j22926535426631_1_alg».proof.Proof.KernelBlocks

noncomputable section

namespace Cert.KernelIdeal.ArrayValue

open Cert.KernelIdeal Cert.KernelIdeal.Gen Cert.KernelIdeal.GenP
open Idealize.ShloMosaic Idealize.ShloMosaic.TcCoe Idealize.SL.Sem Idealize.ShloMosaic.ValueIdx Cert.NodeRow
open Idealize.ShloMosaic.Pipeline (Dat)

variable (m : (ℓ : Loc nD τ sig) → Buf (Elt Ideal) ℓ) (ρ : Dev nD → PrngReg)

/-! ## What a point writes back -/

set_option maxHeartbeats 4000000 in
theorem flushed_eq (c : Dev nD) (t : Fin cfg0.N) :
    (dats m 0 c).flushed 26 t = ((cfg0.win 26).blk t).view.read (Elt Ideal) (result m c) := by
  show (cfg0.win 26).cut (grid0.coords t) ((dats m 0 c).after 26 t) = _
  rw [after0_26]
  unfold out0_26
  rw [View.canon_unit_zero off2]
  simp only [View.ld_unit_zero (S := S2000x128) off2, View.ld_unit_zero (S := S128x128) off2, View.ld_unit_zero (S := S128) off1,
    View.ld_unit_zero (S := S128x1) off2, View.ld_unit_zero (S := S1) off1]
  funext j
  obtain ⟨r, q, rfl⟩ : ∃ (r : Fin 2000) (q : Fin 128), j = ix2 r q := ⟨j 0, j 1, eq_ix2 j⟩
  refine (RowValue.payload_entry (iblk m c 0 t) (iblk m c 1 t) (iblk m c 2 t) (iblk m c 3 t) r (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) q).trans ?_
  rw [nodeRows0 m c t r q, nodeRows1 m c t r q, nodeRows2 m c t r q, nodeRows3 m c t r q, weightBlock4 m c t, biasBlock5 m c t, weightBlock6 m c t, biasBlock7 m c t, weightBlock8 m c t, biasBlock9 m c t, weightBlock10 m c t, biasBlock11 m c t, weightBlock12 m c t, biasBlock13 m c t, weightBlock14 m c t, biasBlock15 m c t, weightBlock16 m c t, biasBlock17 m c t, weightBlock18 m c t, biasBlock19 m c t, weightBlock20 m c t, biasBlock21 m c t, gateWeight m c t, gateBias m c t, weightBlock24 m c t, biasBlock25 m c t]
  show _ = result m c (((cfg0.win 26).blk t).view.emb (ix2 r q))
  rw [show result m c (((cfg0.win 26).blk t).view.emb (ix2 r q)) = result m c (ix2 ((((cfg0.win 26).blk t).view.emb (ix2 r q)) 0) q) from congrArg (result m c) (outColumn t r q)]
  rfl

/-! ## The blocks tile the array -/

/-- An index is in point t's block iff each coordinate is in the block's range on its axis. -/
theorem mem_block (t : Fin cfg0.N) (i : S100000x128.Idx) :
    i ∈ ((cfg0.win 26).blk t).view.set ↔ ∀ a : Fin 2, win0_26.index t a * S2000x128.size a ≤ (i a).val ∧ (i a).val < win0_26.index t a * S2000x128.size a + S2000x128.size a := by
  show i ∈ ((View.whole main_v63).slice (win0_26.rect t)).set ↔ _
  rw [View.set_slice_whole, Rect.mem_set_unit]
  exact Iff.rfl

/-- Row p of the array is in the block of the point whose block index is p / 2000. -/
theorem covered (i : S100000x128.Idx) : ∃ t : Fin cfg0.N, (cfg0.win 26).flush t = true ∧ i ∈ ((cfg0.win 26).blk t).view.set := by
  have hi0 : (i 0).val < 100000 := (i 0).isLt
  have hi1 : (i 1).val < 128 := (i 1).isLt
  obtain ⟨t, ht⟩ := block_onto ⟨(i 0).val / 2000, by omega⟩
  have q0 : win0_26.index t (0 : Fin 2) = (i 0).val / 2000 := congrFun ht 0
  have q1 : win0_26.index t (1 : Fin 2) = 0 := congrFun ht 1
  refine ⟨t, flush0_26 t, ?_⟩
  rw [mem_block]
  intro a
  match a with
  | ⟨0, _⟩ => show win0_26.index t (0 : Fin 2) * 2000 ≤ (i 0).val ∧ (i 0).val < win0_26.index t (0 : Fin 2) * 2000 + 2000; omega
  | ⟨1, _⟩ => show win0_26.index t (1 : Fin 2) * 128 ≤ (i 1).val ∧ (i 1).val < win0_26.index t (1 : Fin 2) * 128 + 128; omega

/-- The output array after the run. -/
theorem final (c : Dev nD) : (dats m 0 c).arrAt 26 cfg0.N = result m c :=
  (dats m 0 c).arrAt_eq_of_cover 26 (result m c) (fun t _ => flushed_eq m c t) covered

/-- The same in terms of the arguments of @main: the node features are as launched, and the neighbour sums are the
    host's scatter-adds of them. -/
theorem result_of_args (c : Dev nD) : result m c = output (m ((c : Thread nD τ).loc main_arg0)) (Cert.ReferenceIdeal.Read.val_main_v22 (F := Ideal) (m ((c : Thread nD τ).loc main_arg0)) (m ((c : Thread nD τ).loc main_arg23)) (m ((c : Thread nD τ).loc main_arg24)) (m ((c : Thread nD τ).loc main_arg25))) (Cert.ReferenceIdeal.Read.val_main_v31 (F := Ideal) (m ((c : Thread nD τ).loc main_arg0)) (m ((c : Thread nD τ).loc main_arg23)) (m ((c : Thread nD τ).loc main_arg24)) (m ((c : Thread nD τ).loc main_arg25))) (Cert.ReferenceIdeal.Read.val_main_v40 (F := Ideal) (m ((c : Thread nD τ).loc main_arg0)) (m ((c : Thread nD τ).loc main_arg23)) (m ((c : Thread nD τ).loc main_arg24)) (m ((c : Thread nD τ).loc main_arg25))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  show output (V m c main_arg0) (V m c main_v22) (V m c main_v31) (V m c main_v40) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) = _
  rw [V_main_arg0, HostWindows.sum22, HostWindows.sum31, HostWindows.sum40]

/-! ## The run -/

set_option maxHeartbeats 4000000 in
/-- Every weakly fair execution ends with the output array at the specification's output of the arguments, and the
    arguments unchanged. -/
theorem run : θ_run defs (onTc (τ := τ) (main (F := Ideal))) ⟨m, fun _ => 0, ρ⟩ fun r => ∀ c : Dev nD,
      r.2.mem ((c : Thread nD τ).loc main_v63) = output (m ((c : Thread nD τ).loc main_arg0)) (Cert.ReferenceIdeal.Read.val_main_v22 (F := Ideal) (m ((c : Thread nD τ).loc main_arg0)) (m ((c : Thread nD τ).loc main_arg23)) (m ((c : Thread nD τ).loc main_arg24)) (m ((c : Thread nD τ).loc main_arg25))) (Cert.ReferenceIdeal.Read.val_main_v31 (F := Ideal) (m ((c : Thread nD τ).loc main_arg0)) (m ((c : Thread nD τ).loc main_arg23)) (m ((c : Thread nD τ).loc main_arg24)) (m ((c : Thread nD τ).loc main_arg25))) (Cert.ReferenceIdeal.Read.val_main_v40 (F := Ideal) (m ((c : Thread nD τ).loc main_arg0)) (m ((c : Thread nD τ).loc main_arg23)) (m ((c : Thread nD τ).loc main_arg24)) (m ((c : Thread nD τ).loc main_arg25))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(((h c).1 26).trans (final m c)).trans (result_of_args m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).1 7).trans (((dats m 0 c).arrAt_in 7 rfl _).trans ((A_eq m c 7).trans (V_main_arg4 m c))),
      ((h c).2 main_arg5 (Pipeline.mem_restRefs_of main_arg5 (by decide) (by decide))).trans (V_main_arg5 m c),
      ((h c).1 9).trans (((dats m 0 c).arrAt_in 9 rfl _).trans ((A_eq m c 9).trans (V_main_arg6 m c))),
      ((h c).2 main_arg7 (Pipeline.mem_restRefs_of main_arg7 (by decide) (by decide))).trans (V_main_arg7 m c),
      ((h c).1 11).trans (((dats m 0 c).arrAt_in 11 rfl _).trans ((A_eq m c 11).trans (V_main_arg8 m c))),
      ((h c).2 main_arg9 (Pipeline.mem_restRefs_of main_arg9 (by decide) (by decide))).trans (V_main_arg9 m c),
      ((h c).1 13).trans (((dats m 0 c).arrAt_in 13 rfl _).trans ((A_eq m c 13).trans (V_main_arg10 m c))),
      ((h c).2 main_arg11 (Pipeline.mem_restRefs_of main_arg11 (by decide) (by decide))).trans (V_main_arg11 m c),
      ((h c).1 15).trans (((dats m 0 c).arrAt_in 15 rfl _).trans ((A_eq m c 15).trans (V_main_arg12 m c))),
      ((h c).2 main_arg13 (Pipeline.mem_restRefs_of main_arg13 (by decide) (by decide))).trans (V_main_arg13 m c),
      ((h c).1 17).trans (((dats m 0 c).arrAt_in 17 rfl _).trans ((A_eq m c 17).trans (V_main_arg14 m c))),
      ((h c).2 main_arg15 (Pipeline.mem_restRefs_of main_arg15 (by decide) (by decide))).trans (V_main_arg15 m c),
      ((h c).1 19).trans (((dats m 0 c).arrAt_in 19 rfl _).trans ((A_eq m c 19).trans (V_main_arg16 m c))),
      ((h c).2 main_arg17 (Pipeline.mem_restRefs_of main_arg17 (by decide) (by decide))).trans (V_main_arg17 m c),
      ((h c).1 21).trans (((dats m 0 c).arrAt_in 21 rfl _).trans ((A_eq m c 21).trans (V_main_arg18 m c))),
      ((h c).2 main_arg19 (Pipeline.mem_restRefs_of main_arg19 (by decide) (by decide))).trans (V_main_arg19 m c),
      ((h c).1 23).trans (((dats m 0 c).arrAt_in 23 rfl _).trans ((A_eq m c 23).trans (V_main_arg20 m c))),
      ((h c).2 main_arg21 (Pipeline.mem_restRefs_of main_arg21 (by decide) (by decide))).trans (V_main_arg21 m c),
      ((h c).1 25).trans (((dats m 0 c).arrAt_in 25 rfl _).trans ((A_eq m c 25).trans (V_main_arg22 m c))),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c)⟩)
    (run_main m ρ)

end Cert.KernelIdeal.ArrayValue

end
-- ==== Proof.RefRow.lean ====
/-
  The reference, read one output entry at a time on the extended reals. Each of its eleven linear layers is the same
  four operations (transpose the weight, contract the last axis of the input with it, lay the bias out as a row and
  repeat it over the nodes, add), so one reading of that group serves them all; the balance gate is the logistic
  function spelt as 1 / (1 + e^(-x)); the rectifier is the maximum with zero. The three neighbour sums are left as
  the reference computes them: only their rows are read.
-/
import proofs.«140283_j22926535426631_1_alg».proof.Proof.Gen.ReferenceIdeal.Read
import proofs.«140283_j22926535426631_1_alg».proof.Proof.ArraySpec
import Idealize.ShloMosaic.Lib.ValueIdx
import Idealize.ShloMosaic.Lib.IdealHost
import Idealize.ShloMosaic.PureOps.Ideal.Laws

set_option maxRecDepth 16384

noncomputable section

namespace Cert.ReferenceIdeal.RowValue

open Cert.ReferenceIdeal Cert.ReferenceIdeal.Gen Cert.ReferenceIdeal.Read
open Idealize.ShloMosaic Idealize.ShloMosaic.TcCoe Idealize.ShloMosaic.ValueIdx Cert.NodeRow

/-! ## One linear layer -/

/-- The group transpose / contract / lay out the bias / add, at (p, q): the specification's linear layer of row p. -/
theorem layer (x : (⟨S100000x128, .f32⟩ : BufTy).Contents (Elt Ideal)) (W : (⟨S128x128, .f32⟩ : BufTy).Contents (Elt Ideal)) (b : (⟨S128, .f32⟩ : BufTy).Contents (Elt Ideal)) (p : Fin 100000) (q : Fin 128) :
    val_main_v45 (F := Ideal) x W b (ix2 p q) = lin (fun k => x (ix2 p k)) (cf W) (rb b) q := by
  rw [val_main_v45_apply, val_main_v42_apply, val_main_v44_apply, val_main_v43_apply]
  have el : ∀ k : Fin 128, lidx_main_v42 (ix2 p q) k = ix2 p k := fun k => funext fun a => by
    match a with
    | ⟨0, _⟩ => rfl
    | ⟨1, _⟩ => rfl
  have er : ∀ k : Fin 128, idx_main_v41 (ridx_main_v42 (ix2 p q) k) = ix2 q k := fun k => funext fun a => by
    match a with
    | ⟨0, _⟩ => rfl
    | ⟨1, _⟩ => rfl
  have eb : idx_main_v43 (idx_main_v44 (ix2 p q)) = ix1 q := funext fun a => by
    match a with
    | ⟨0, _⟩ => rfl
  rw [eb]
  show (∑ k : Fin 128, x (lidx_main_v42 (ix2 p q) k) * val_main_v41 (F := Ideal) W (ridx_main_v42 (ix2 p q) k)) + b (ix1 q)
      = (∑ k : Fin 128, x (ix2 p k) * W (ix2 q k)) + b (ix1 q)
  refine congrArg (· + b (ix1 q)) (Finset.sum_congr rfl fun k _ => ?_)
  rw [val_main_v41_apply, el k, er k]

/-- Two such groups with their two entrywise gates (each gate a linear layer of the node features `h`). -/
theorem twoLayers (s h : (⟨S100000x128, .f32⟩ : BufTy).Contents (Elt Ideal)) (W1 : (⟨S128x128, .f32⟩ : BufTy).Contents (Elt Ideal)) (b1 : (⟨S128, .f32⟩ : BufTy).Contents (Elt Ideal)) (T1 : (⟨S128x128, .f32⟩ : BufTy).Contents (Elt Ideal)) (c1 : (⟨S128, .f32⟩ : BufTy).Contents (Elt Ideal)) (W2 : (⟨S128x128, .f32⟩ : BufTy).Contents (Elt Ideal)) (b2 : (⟨S128, .f32⟩ : BufTy).Contents (Elt Ideal)) (T2 : (⟨S128x128, .f32⟩ : BufTy).Contents (Elt Ideal)) (c2 : (⟨S128, .f32⟩ : BufTy).Contents (Elt Ideal))
    (p : Fin 100000) (q : Fin 128) :
    val_main_v45 (F := Ideal) (mulf (val_main_v45 (F := Ideal) (mulf s (val_main_v45 (F := Ideal) h T1 c1) : FVec Ideal S100000x128 .f32) W1 b1) (val_main_v45 (F := Ideal) h T2 c2) : FVec Ideal S100000x128 .f32) W2 b2 (ix2 p q)
      = gated (fun k => s (ix2 p k)) (fun k => h (ix2 p k)) (cf W1) (rb b1) (cf T1) (rb c1) (cf W2) (rb b2) (cf T2) (rb c2) q := by
  rw [layer]
  unfold gated
  refine congrArg (fun f : Row => lin f (cf W2) (rb b2) q) (funext fun k => ?_)
  show val_main_v45 (F := Ideal) (mulf s (val_main_v45 (F := Ideal) h T1 c1) : FVec Ideal S100000x128 .f32) W1 b1 (ix2 p k) * val_main_v45 (F := Ideal) h T2 c2 (ix2 p k) = _
  rw [layer, layer]
  refine congrArg (fun f : Row => lin f (cf W1) (rb b1) k * lin (fun k => h (ix2 p k)) (cf T2) (rb c2) k) (funext fun j => ?_)
  show s (ix2 p j) * val_main_v45 (F := Ideal) h T1 c1 (ix2 p j) = _
  rw [layer]

/-! ## The balance gate -/

theorem gate (x0 : (⟨S100000x128, .f32⟩ : BufTy).Contents (Elt Ideal)) (x17 : (⟨S128x128, .f32⟩ : BufTy).Contents (Elt Ideal)) (x18 : (⟨S128, .f32⟩ : BufTy).Contents (Elt Ideal)) (x19 : (⟨S1x128, .f32⟩ : BufTy).Contents (Elt Ideal)) (x20 : (⟨S1, .f32⟩ : BufTy).Contents (Elt Ideal)) (p : Fin 100000) :
    val_main_v101 (F := Ideal) x0 x17 x18 x19 x20 (ix2 p (0 : Fin 1))
      = balance (fun k => x0 (ix2 p k)) (cf x17) (rb x18) (fun k => x19 (ix2 (0 : Fin 1) k)) (x20 (ix1 (0 : Fin 1))) := by
  rw [val_main_v101_apply, val_main_v100_apply, val_main_cst_9_apply, val_main_v99_apply, val_main_v98_apply, val_main_cst_8_apply,
    val_main_v97_apply, val_main_v96_apply, val_main_v95_apply, val_main_v92_apply, val_main_v94_apply, val_main_v93_apply]
  have e93 : idx_main_v93 (idx_main_v94 (ix2 p (0 : Fin 1))) = ix1 (0 : Fin 1) := funext fun a => by
    match a with
    | ⟨0, _⟩ => rfl
  rw [e93]
  have hs : ∀ k : Fin 128, val_main_v90 (F := Ideal) x0 x17 x18 (lidx_main_v92 (ix2 p (0 : Fin 1)) k) * val_main_v91 (F := Ideal) x19 (ridx_main_v92 (ix2 p (0 : Fin 1)) k)
      = max (lin (fun j => x0 (ix2 p j)) (cf x17) (rb x18) k) 0 * x19 (ix2 (0 : Fin 1) k) := fun k => by
    have el : lidx_main_v92 (ix2 p (0 : Fin 1)) k = ix2 p k := funext fun a => by
      match a with
      | ⟨0, _⟩ => rfl
      | ⟨1, _⟩ => rfl
    have er : idx_main_v91 (ridx_main_v92 (ix2 p (0 : Fin 1)) k) = ix2 (0 : Fin 1) k := funext fun a => by
      match a with
      | ⟨0, _⟩ => rfl
      | ⟨1, _⟩ => rfl
    rw [val_main_v91_apply, el, er, val_main_v90_apply, val_main_call0_v0_apply, val_main_call0_cst_apply]
    show max (val_main_v45 (F := Ideal) x0 x17 x18 (ix2 p k)) (Ideal.ofBits .f32 0x00000000#32) * _ = _
    rw [layer, Ideal.ofBits_zero_f32]
  rw [Finset.sum_congr rfl fun k _ => hs k]
  show Ideal.div (Ideal.ofBits .f32 0x3F800000#32) (Ideal.ofBits .f32 0x3F800000#32 + Ideal.exp (-(_ + _))) = _
  rw [Ideal.ofBits_one_f32]
  rfl

/-! ## The whole reference at one entry -/

theorem entry (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S1x128, .f32⟩ : BufTy).Contents (Elt Ideal)) (x20 : (⟨S1, .f32⟩ : BufTy).Contents (Elt Ideal)) (x21 : (⟨S128x128, .f32⟩ : BufTy).Contents (Elt Ideal)) (x22 : (⟨S128, .f32⟩ : BufTy).Contents (Elt Ideal)) (x23 x24 : (⟨S640000, .i32⟩ : BufTy).Contents (Elt Ideal)) (x25 : (⟨S100000, .i32⟩ : BufTy).Contents (Elt Ideal)) (p : Fin 100000) (q : Fin 128) :
    val_main_v161 (F := Ideal) x0 x1 x2 x3 x4 x5 x6 x7 x8 x9 x10 x11 x12 x13 x14 x15 x16 x17 x18 x19 x20 x21 x22 x23 x24 x25 (ix2 p q)
      = row (fun k => x0 (ix2 p k)) (fun k => (val_main_v22 (F := Ideal) x0 x23 x24 x25) (ix2 p k)) (fun k => (val_main_v31 (F := Ideal) x0 x23 x24 x25) (ix2 p k)) (fun k => (val_main_v40 (F := Ideal) x0 x23 x24 x25) (ix2 p k))
          (cf x1) (rb x2) (cf x3) (rb x4) (cf x5) (rb x6) (cf x7) (rb x8)
          (cf x9) (rb x10) (cf x11) (rb x12) (cf x13) (rb x14) (cf x15) (rb x16)
          (cf x17) (rb x18) (fun k => x19 (ix2 (0 : Fin 1) k)) (x20 (ix1 (0 : Fin 1))) (cf x21) (rb x22) q := by
  have eself : val_main_v159 (F := Ideal) x0 x21 x22 = val_main_v45 (F := Ideal) x0 x21 x22 := rfl
  have efr : val_main_v62 (F := Ideal) x0 x1 x2 x3 x4 x5 x6 x7 x8 x23 x24 x25 = val_main_v45 (F := Ideal) (mulf (val_main_v45 (F := Ideal) (mulf (val_main_v22 (F := Ideal) x0 x23 x24 x25) (val_main_v45 (F := Ideal) x0 x3 x4) : FVec Ideal S100000x128 .f32) x1 x2) (val_main_v45 (F := Ideal) x0 x7 x8) : FVec Ideal S100000x128 .f32) x5 x6 := rfl
  have ebe : val_main_v84 (F := Ideal) x0 x9 x10 x11 x12 x13 x14 x15 x16 x23 x24 x25 = val_main_v45 (F := Ideal) (mulf (val_main_v45 (F := Ideal) (mulf (val_main_v31 (F := Ideal) x0 x23 x24 x25) (val_main_v45 (F := Ideal) x0 x11 x12) : FVec Ideal S100000x128 .f32) x9 x10) (val_main_v45 (F := Ideal) x0 x15 x16) : FVec Ideal S100000x128 .f32) x13 x14 := rfl
  have eufr : val_main_v123 (F := Ideal) x0 x1 x2 x3 x4 x5 x6 x7 x8 x23 x24 x25 = val_main_v45 (F := Ideal) (mulf (val_main_v45 (F := Ideal) (mulf (val_main_v40 (F := Ideal) x0 x23 x24 x25) (val_main_v45 (F := Ideal) x0 x3 x4) : FVec Ideal S100000x128 .f32) x1 x2) (val_main_v45 (F := Ideal) x0 x7 x8) : FVec Ideal S100000x128 .f32) x5 x6 := rfl
  have eube : val_main_v145 (F := Ideal) x0 x9 x10 x11 x12 x13 x14 x15 x16 x23 x24 x25 = val_main_v45 (F := Ideal) (mulf (val_main_v45 (F := Ideal) (mulf (val_main_v40 (F := Ideal) x0 x23 x24 x25) (val_main_v45 (F := Ideal) x0 x11 x12) : FVec Ideal S100000x128 .f32) x9 x10) (val_main_v45 (F := Ideal) x0 x15 x16) : FVec Ideal S100000x128 .f32) x13 x14 := rfl
  have i146 : idx_main_v146 (ix2 p q) = ix2 p (0 : Fin 1) := funext fun a => by
    match a with
    | ⟨0, _⟩ => rfl
    | ⟨1, _⟩ => rfl
  have i150 : idx_main_v150 (ix2 p q) = ix2 p (0 : Fin 1) := funext fun a => by
    match a with
    | ⟨0, _⟩ => rfl
    | ⟨1, _⟩ => rfl
  rw [val_main_v161_apply, val_main_v160_apply, val_main_v154_apply, val_main_v153_apply, val_main_v152_apply, val_main_v147_apply,
    val_main_v151_apply, val_main_v146_apply, val_main_v150_apply, val_main_v149_apply, val_main_v148_apply, val_main_cst_10_apply,
    val_main_call1_v0_apply, val_main_call1_cst_apply, i146, i150, gate,
    eself, efr, ebe, eufr, eube, layer, twoLayers, twoLayers, twoLayers, twoLayers]
  show max (_ + ((_ + _) + (_ * _ + (Ideal.ofBits .f32 0x3F800000#32 - _) * _))) (Ideal.ofBits .f32 0x00000000#32) = _
  rw [Ideal.ofBits_one_f32, Ideal.ofBits_zero_f32]
  rfl

/-- The reference's result array is the specification's output of its arguments and of its own neighbour sums. -/
theorem result_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S1x128, .f32⟩ : BufTy).Contents (Elt Ideal)) (x20 : (⟨S1, .f32⟩ : BufTy).Contents (Elt Ideal)) (x21 : (⟨S128x128, .f32⟩ : BufTy).Contents (Elt Ideal)) (x22 : (⟨S128, .f32⟩ : BufTy).Contents (Elt Ideal)) (x23 x24 : (⟨S640000, .i32⟩ : BufTy).Contents (Elt Ideal)) (x25 : (⟨S100000, .i32⟩ : BufTy).Contents (Elt Ideal)) :
    val_main_v161 (F := Ideal) x0 x1 x2 x3 x4 x5 x6 x7 x8 x9 x10 x11 x12 x13 x14 x15 x16 x17 x18 x19 x20 x21 x22 x23 x24 x25
      = output x0 (val_main_v22 (F := Ideal) x0 x23 x24 x25) (val_main_v31 (F := Ideal) x0 x23 x24 x25) (val_main_v40 (F := Ideal) x0 x23 x24 x25) x1 x2 x3 x4 x5 x6 x7 x8 x9 x10 x11 x12 x13 x14 x15 x16 x17 x18 x19 x20 x21 x22 := by
  funext i
  obtain ⟨p, q, rfl⟩ : ∃ (p : Fin 100000) (q : Fin 128), i = ix2 p q := ⟨i 0, i 1, eq_ix2 i⟩
  exact entry x0 x1 x2 x3 x4 x5 x6 x7 x8 x9 x10 x11 x12 x13 x14 x15 x16 x17 x18 x19 x20 x21 x22 x23 x24 x25 p q

end Cert.ReferenceIdeal.RowValue

end
-- ==== Proof.lean ====
/- The label-aware aggregation layer of a graph network over 100000 nodes and 640000 edges: each node's output row is
   the rectified sum of a linear image of its own features and a neighbourhood term — the features of its in-neighbours
   summed per source label (three sums), the two labelled sums each sent through their own gated two-layer map, the
   unlabelled sum sent through both and mixed by a logistic balance gate computed from the node's own features.

   The kernel computes the three neighbour sums on the host and the rest in a grid of 50 row blocks of 2000 nodes,
   with the weights transposed beforehand; the reference computes everything on whole arrays. On the extended reals
   the two are the same function entry by entry (Proof/RowSpec.lean, Proof/ArraySpec.lean): every output entry depends
   on its own node's rows only, a matrix product into zeros is the sum over the contracted axis, a change of float
   format is the identity, the logistic function is 1 / (1 + e^(-x)), and both sides apply the same operations in the
   same order — no law of arithmetic beyond that is used, so the inputs' finiteness is never consulted.
   Proof/KernelRow.lean reads the kernel's body at one entry, Proof/KernelArray.lean carries it from blocks to the
   array (over Proof/HostWindows.lean, what the host wrote before the call), Proof/RefRow.lean reads the reference;
   the claims are assembled below. -/
import proofs.«140283_j22926535426631_1_alg».proof.Defs
import proofs.«140283_j22926535426631_1_alg».proof.Proof.Gen.Kernel
import proofs.«140283_j22926535426631_1_alg».proof.Proof.Gen.Kernel.Skeleton
import proofs.«140283_j22926535426631_1_alg».proof.Proof.Gen.Kernel.Launch
import proofs.«140283_j22926535426631_1_alg».proof.Proof.Gen.Kernel.Points
import proofs.«140283_j22926535426631_1_alg».proof.Proof.FrameKernel
import proofs.«140283_j22926535426631_1_alg».proof.Proof.Gen.KernelIdeal
import proofs.«140283_j22926535426631_1_alg».proof.Proof.Gen.KernelIdeal.Skeleton
import proofs.«140283_j22926535426631_1_alg».proof.Proof.Gen.KernelIdeal.Launch
import proofs.«140283_j22926535426631_1_alg».proof.Proof.Gen.KernelIdeal.Points
import proofs.«140283_j22926535426631_1_alg».proof.Proof.FrameKernelIdeal
import proofs.«140283_j22926535426631_1_alg».proof.Proof.Gen.ReferenceIdeal
import proofs.«140283_j22926535426631_1_alg».proof.Proof.Gen.Pre_finite_inputs
import proofs.«140283_j22926535426631_1_alg».proof.Proof.Gen.ReferenceIdeal.Run
import proofs.«140283_j22926535426631_1_alg».proof.Proof.Gen.ReferenceIdeal.Read
import proofs.«140283_j22926535426631_1_alg».proof.Proof.KernelArray
import proofs.«140283_j22926535426631_1_alg».proof.Proof.RefRow
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.GenP.frame m ρ

/-- So does its reading on the extended reals. -/
theorem frame_kernel_ideal : Cert.frame_KernelIdeal := fun m ρ _ => Cert.KernelIdeal.GenP.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation: nothing to preserve. -/
theorem preserves : Cert.preserves_Kernel_KernelIdeal := trivial

set_option maxHeartbeats 4000000 in
/-- From memories that agree on the arguments both programs end with the specification's output of those arguments:
    the kernel by its blocks (Proof/KernelArray.lean), the reference entry by entry (Proof/RefRow.lean). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22, a23, a24, a25⟩ := hagree c
  rw [Cert.ReferenceIdeal.Read.val_main_v161_eq, a0, a1, a2, a3, a4, a5, a6, a7, a8, a9, a10, a11, a12, a13, a14, a15, a16, a17, a18, a19, a20, a21, a22, a23, a24, a25, Cert.ReferenceIdeal.RowValue.result_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
